-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S128x256 .f32) (main_arg9 : FVec F S256 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128x256 .f32) (main_arg9 : FVec F S256 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) (main_arg6 : FVec F S64x128 .f32) (main_arg7 : FVec F S128 .f32) (main_arg8 : FVec F S128x256 .f32) (main_arg9 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1700000x128 : Shape := ⟨2, ![1700000, 128]⟩
abbrev S1x128 : Shape := ⟨2, ![1, 128]⟩
abbrev S1x64 : Shape := ⟨2, ![1, 64]⟩
abbrev S1x256 : Shape := ⟨2, ![1, 256]⟩
abbrev S4000x64 : Shape := ⟨2, ![4000, 64]⟩

abbrev nBuf : Space → Nat
  | .hbm => 55
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .bf16⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .bf16⟩
  | .hbm, ⟨45, _⟩ => ⟨S1700000x128, .f32⟩
  | .hbm, ⟨46, _⟩ => ⟨S_, .f32⟩
  | .hbm, ⟨47, _⟩ => ⟨S100000x128, .f32⟩
  | .hbm, ⟨48, _⟩ => ⟨S1700000x1, .i32⟩
  | .hbm, ⟨49, _⟩ => ⟨S100000x128, .f32⟩
  | .hbm, ⟨50, _⟩ => ⟨S1x128, .f32⟩
  | .hbm, ⟨51, _⟩ => ⟨S1x64, .f32⟩
  | .hbm, ⟨52, _⟩ => ⟨S1x128, .f32⟩
  | .hbm, ⟨53, _⟩ => ⟨S1x256, .f32⟩
  | .hbm, ⟨54, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S64x128, .f32⟩
  | .local _ .vmem, ⟨15, _⟩ => ⟨S1x128, .f32⟩
  | .local _ .vmem, ⟨16, _⟩ => ⟨S128x256, .f32⟩
  | .local _ .vmem, ⟨17, _⟩ => ⟨S1x256, .f32⟩
  | .local _ .vmem, ⟨18, _⟩ => ⟨S4000x256, .f32⟩
  | .local _ .vmem, ⟨19, _⟩ => ⟨S4000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S64_S1x64 : S64.ShapeCasts S1x64
  shapeCasts_S256_S1x256 : S256.ShapeCasts S1x256
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  scatter_S100000_S1700000x1_S1700000_n_0_0_1_wf : ScatterDims.WF S100000 S1700000x1 S1700000 [] [0] [0] 1
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  dot_S4000x64_S64x128_S4000x128_1_0_0_1_n_n_wf : DotDims.WF S4000x64 S64x128 S4000x128 [1] [0] [0] [1] [] []
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x256.size a ≤ S100000x256.size a
  hwx1_9 : ∀ i : grid1.Coords, EltTy.bits .f32 = 32 ∨ (Rect.block (s := S100000x256) S4000x256.size (cc1_transform_9 i) (hinb1_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S4000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩
abbrev S1x256 : Shape := ⟨2, ![1, 256]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x1, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S100000x256, .f32⟩
  | .hbm, ⟨88, _⟩ => ⟨S1x256, .f32⟩
  | .hbm, ⟨89, _⟩ => ⟨S100000x256, .f32⟩
  | .hbm, ⟨90, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KernelRun.lean ====
/-
  The kernel program's run with its result named.

  @main is a stretch of host operations, the projection region, a second stretch of host operations and the decoder
  region. Every weakly fair execution terminates without a fault; at the end each argument array is as launched and
  the result array holds what the last region's write-backs leave in it — the fold of the buffer contents through
  the six segments, read at the result's buffer. (The frame claim forgets the result; this statement keeps it.)
-/
import proofs.«159128_j9998683865331_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the
    fold through the segments gives it and every argument array as launched. -/
theorem run_named : θ_run defs (onTc (τ := τ) (main (F := F))) ⟨m, fun _ => 0, ρ⟩ (fun r => ∀ c : Dev nD,
      r.2.mem ((c.tc : Thread nD τ).loc main_v34) = V6 m ρ c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibRowBlockProduct.lean ====
/-
  A block of rows of a matrix product is the product of that block of rows.

  Let A be an M × k matrix, B a k × n matrix, and X an mb × k matrix whose row p is row r of A. Then the product
  X · B accumulated into zero has, at entry (p, q), the value of the whole product A · B at entry (r, q): both are
  the sum over the k contracted coordinates c of A(r, c) · B(c, q). The left side is the matrix unit's product
  started from an accumulator of zeros; the right side is the host's `dot_general`. Only the two rows have to agree,
  entry by entry; nothing is asked of the other rows, and no entry has to be finite (a finite sum of products on the
  extended reals is a function of its terms).
-/
import proofs.«159128_j9998683865331_2_alg».proof.Proof.LibPlainMatmul
import proofs.«159128_j9998683865331_2_alg».proof.Proof.LibPlainDotGeneral

open scoped BigOperators

namespace Idealize.ShloMosaic.ValueIdx

open Idealize.ShloMosaic

/-- Row `p` of the block product `X · Y` (into zero) is row `r` of the whole product `A · B`, when row `p` of `X` is
    row `r` of `A` and column `q` of `Y` is column `q` of `B`. -/
theorem matmul_rowblock_apply {M mb k n : ℕ} {φ₁ φ₂ ψ₁ ψ₂ : FTy}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (prec prec' : Option ContractPrecision)
    (A : FVec Ideal ⟨2, ![M, k]⟩ ψ₁) (B : FVec Ideal ⟨2, ![k, n]⟩ ψ₂)
    (X : FVec Ideal ⟨2, ![mb, k]⟩ φ₁) (Y : FVec Ideal ⟨2, ![k, n]⟩ φ₂)
    (p : Fin mb) (q : Fin n) (r : Fin M)
    (hX : ∀ c : Fin k, X (ix2 p c) = A (ix2 r c)) (hY : ∀ c : Fin k, Y (ix2 c q) = B (ix2 c q)) :
    matmul (⟨[1], [0], [0], [1], [], [], wb⟩ : DotDims ⟨2, ![mb, k]⟩ ⟨2, ![k, n]⟩ ⟨2, ![mb, n]⟩) prec X Y
        (constant (F := Ideal) ⟨2, ![mb, n]⟩ .f32 0x00000000#32) (ix2 p q)
      = Host.dotGeneral (⟨[1], [0], [0], [1], [], [], wa⟩ : DotDims ⟨2, ![M, k]⟩ ⟨2, ![k, n]⟩ ⟨2, ![M, n]⟩) prec' A B (ix2 r q) := by
  rw [matmul_plain_zero_apply wb prec X Y p q, dotGeneral_plain_apply wa prec' A B r q]
  exact Finset.sum_congr rfl fun c _ => by rw [hX c, hY c]

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockEntries.lean ====
/-
  What the two kernel bodies compute on one block of 4000 rows, read at an entry.

  The first body multiplies the block of x by W (a matrix product accumulated from zero) and scales row p by the
  block's factor for that row: entry (p, l) is (Σ_k x(p, k) · W(k, l)) · d(p). The second body is a row-wise chain
  of three dense layers: from a(p, ·), the factor d(p) and the four bias rows it forms
      h(p, a) = max (a(p, a) · d(p) + b₀(a)) 0,
      z(p, b) = Σ_a h(p, a) · W₁(a, b) + b₁(b),
      g(p, c) = max (Σ_b z(p, b) · W₂(b, c) + b₂(c)) 0,
      out(p, j) = Σ_c g(p, c) · W₃(c, j) + b₃(j).
  A product of a block of rows is, row by row, the product of the whole matrix at the corresponding row; so if
  row p of the block is row r of whole arrays H, Z, G built the same way, the block's entries are the whole
  arrays' entries at row r. The changes of float format in the bodies are the identity on the extended reals.
-/
import proofs.«159128_j9998683865331_2_alg».proof.Proof.Gen.KernelIdeal.Skeleton
import proofs.«159128_j9998683865331_2_alg».proof.Proof.LibRowBlockProduct
import proofs.«159128_j9998683865331_2_alg».proof.Proof.LibColumnBroadcast
import Idealize.ShloMosaic.Lib.ValueLayout
import Idealize.ShloMosaic.Lib.Pipeline.Value

noncomputable section

namespace Cert.KernelIdeal.Block

open Idealize.ShloMosaic Idealize.ShloMosaic.ValueIdx Cert.KernelIdeal Cert.KernelIdeal.Gen

/-- One dense layer on a block of rows: the block's product with the weights (accumulated from zero) plus a bias
    row repeated down the block, at entry `(p, q)`, is the whole product's entry `(r, q)` plus the bias entry `q`,
    when row `p` of the block is row `r` of the whole left factor. -/
theorem dense_entry {M mb k n : ℕ}
    (wb : DotDims.WF ⟨2, ![mb, k]⟩ ⟨2, ![k, n]⟩ ⟨2, ![mb, n]⟩ [1] [0] [0] [1] [] [])
    (wa : DotDims.WF ⟨2, ![M, k]⟩ ⟨2, ![k, n]⟩ ⟨2, ![M, n]⟩ [1] [0] [0] [1] [] [])
    (A : FVec Ideal ⟨2, ![M, k]⟩ .f32) (B : FVec Ideal ⟨2, ![k, n]⟩ .f32)
    (X : FVec Ideal ⟨2, ![mb, k]⟩ .bf16) (hB : FTy.bits .bf16 < FTy.bits .f32)
    (bias : FVec Ideal ⟨2, ![1, n]⟩ .f32) (hb : (⟨2, ![1, n]⟩ : Shape).Broadcasts ⟨2, ![mb, n]⟩)
    (p : Fin mb) (q : Fin n) (r : Fin M) (hX : ∀ c : Fin k, X (ix2 p c) = A (ix2 r c)) :
    addf (matmul (⟨[1], [0], [0], [1], [], [], wb⟩ : DotDims ⟨2, ![mb, k]⟩ ⟨2, ![k, n]⟩ ⟨2, ![mb, n]⟩) none X
          (truncf .bf16 B hB) (constant (F := Ideal) ⟨2, ![mb, n]⟩ .f32 0x00000000#32))
        (broadcastTo ⟨2, ![mb, n]⟩ bias hb) (ix2 p q)
      = Host.dotGeneral (⟨[1], [0], [0], [1], [], [], wa⟩ : DotDims ⟨2, ![M, k]⟩ ⟨2, ![k, n]⟩ ⟨2, ![M, n]⟩) none A B (ix2 r q)
        + bias (ix2 (0 : Fin 1) q) :=
  congrArg₂ (· + ·) (matmul_rowblock_apply wb wa none none A B X (truncf .bf16 B hB) p q r hX (fun _ => rfl))
    (broadcastTo_1b_ab_apply bias hb p q)

/-- THE PROJECTION BLOCK at `(p, l)`: the whole product `X · W` at `(r, l)`, times the block's factor of row `p`. -/
theorem projection_entry
    (wa : DotDims.WF ⟨2, ![100000, 256]⟩ ⟨2, ![256, 128]⟩ ⟨2, ![100000, 128]⟩ [1] [0] [0] [1] [] [])
    (x0 : Vec Ideal S4000x256 .f32) (x1 : Vec Ideal S256x128 .f32) (x2 : Vec Ideal S4000x1 .f32)
    (X : FVec Ideal ⟨2, ![100000, 256]⟩ .f32) (p : Fin 4000) (r : Fin 100000) (l : Fin 128)
    (hX : ∀ k : Fin 256, (x0 : FVec Ideal ⟨2, ![4000, 256]⟩ .f32) (ix2 p k) = X (ix2 r k)) :
    k0_pay1 x0 x1 x2 (ix2 p l)
      = Host.dotGeneral (⟨[1], [0], [0], [1], [], [], wa⟩ : DotDims ⟨2, ![100000, 256]⟩ ⟨2, ![256, 128]⟩ ⟨2, ![100000, 128]⟩) none (φ₂ := .f32) X x1 (ix2 r l)
        * (x2 : FVec Ideal ⟨2, ![4000, 1]⟩ .f32) (ix2 p (0 : Fin 1)) := by
  unfold k0_pay1
  dsimp only
  refine congrArg₂ (· * ·) (matmul_rowblock_apply _ wa none none X (x1 : FVec Ideal ⟨2, ![256, 128]⟩ .f32) _ _ p l r hX (fun _ => rfl)) ?_
  exact (broadcastTo_a1_ab_apply _ _ p l).trans (congrFun (shapeCast_self x2 _) _)

/-- THE DECODER BLOCK at `(p, j)`: if row `p` of the block's hidden layer is row `r` of a whole array `Hm`, and `Zm`,
    `Gm` have at row `r` the next two layers of `Hm`, then the block's entry is the last layer of `Gm` at `(r, j)`. -/
theorem decoder_entry
    (wa1 : DotDims.WF ⟨2, ![100000, 128]⟩ ⟨2, ![128, 64]⟩ ⟨2, ![100000, 64]⟩ [1] [0] [0] [1] [] [])
    (wa2 : DotDims.WF ⟨2, ![100000, 64]⟩ ⟨2, ![64, 128]⟩ ⟨2, ![100000, 128]⟩ [1] [0] [0] [1] [] [])
    (wa3 : DotDims.WF ⟨2, ![100000, 128]⟩ ⟨2, ![128, 256]⟩ ⟨2, ![100000, 256]⟩ [1] [0] [0] [1] [] [])
    (x0 : Vec Ideal S4000x128 .f32) (x1 : Vec Ideal S4000x1 .f32) (x2 : Vec Ideal S1x128 .f32) (x3 : Vec Ideal S128x64 .f32)
    (x4 : Vec Ideal S1x64 .f32) (x5 : Vec Ideal S64x128 .f32) (x6 : Vec Ideal S1x128 .f32) (x7 : Vec Ideal S128x256 .f32)
    (x8 : Vec Ideal S1x256 .f32)
    (Hm : FVec Ideal ⟨2, ![100000, 128]⟩ .f32) (Zm : FVec Ideal ⟨2, ![100000, 64]⟩ .f32) (Gm : FVec Ideal ⟨2, ![100000, 128]⟩ .f32)
    (p : Fin 4000) (r : Fin 100000) (j : Fin 256)
    (hH : ∀ a : Fin 128, max (x0 (ix2 p a) * x1 (ix2 p (0 : Fin 1)) + x2 (ix2 (0 : Fin 1) a)) (Ideal.ofBits .f32 0x00000000#32)
      = Hm (ix2 r a))
    (hZ : ∀ b : Fin 64, Host.dotGeneral (⟨[1], [0], [0], [1], [], [], wa1⟩ : DotDims ⟨2, ![100000, 128]⟩ ⟨2, ![128, 64]⟩ ⟨2, ![100000, 64]⟩)
        none (φ₂ := .f32) Hm x3 (ix2 r b) + x4 (ix2 (0 : Fin 1) b) = Zm (ix2 r b))
    (hG : ∀ c : Fin 128, max (Host.dotGeneral (⟨[1], [0], [0], [1], [], [], wa2⟩ : DotDims ⟨2, ![100000, 64]⟩ ⟨2, ![64, 128]⟩ ⟨2, ![100000, 128]⟩)
        none (φ₂ := .f32) Zm x5 (ix2 r c) + x6 (ix2 (0 : Fin 1) c)) (Ideal.ofBits .f32 0x00000000#32) = Gm (ix2 r c)) :
    k1_pay1 (k1_pay2 x0 x1 x2 x3 x4 x5 x6 x7) (k1_pay3 x8) (ix2 p j)
      = Host.dotGeneral (⟨[1], [0], [0], [1], [], [], wa3⟩ : DotDims ⟨2, ![100000, 128]⟩ ⟨2, ![128, 256]⟩ ⟨2, ![100000, 256]⟩)
          none (φ₂ := .f32) Gm x7 (ix2 r j) + x8 (ix2 (0 : Fin 1) j) := by
  unfold k1_pay1 k1_pay2 k1_pay3
  dsimp only
  -- the last layer, over the rows of the decoded block
  refine (dense_entry _ wa3 Gm x7 _ _ _ _ p j r (fun c => ?_)).trans
    (congrArg (_ + ·) (congrFun (shapeCast_self x8 _) _))
  refine Eq.trans ?_ (hG c)
  show max (addf (matmul _ none _ _ _) (broadcastTo _ _ _) (ix2 p c)) (Ideal.ofBits .f32 0x00000000#32) = _
  refine congrArg (max · _) ?_
  -- the middle layer, over the rows of the code block
  refine (dense_entry _ wa2 Zm x5 _ _ _ _ p c r (fun b => ?_)).trans
    (congrArg (_ + ·) (congrFun (shapeCast_self x6 _) _))
  refine Eq.trans ?_ (hZ b)
  -- the first layer, over the rows of the hidden block
  refine (dense_entry _ wa1 Hm x3 _ _ _ _ p b r (fun a => ?_)).trans
    (congrArg (_ + ·) (congrFun (shapeCast_self x4 _) _))
  refine Eq.trans ?_ (hH a)
  -- the hidden row: the scaled aggregate plus its bias, clipped below at zero
  show max (shapeCast S4000x128 x0 _ (ix2 p a) * broadcastTo S4000x128 (shapeCast S4000x1 x1 _) _ (ix2 p a)
      + broadcastTo S4000x128 (shapeCast S1x128 x2 _) _ (ix2 p a)) (Ideal.ofBits .f32 0x00000000#32) = _
  rw [shapeCast_self x0, broadcastTo_a1_ab_apply, broadcastTo_1b_ab_apply, shapeCast_self x1, shapeCast_self x2]

end Cert.KernelIdeal.Block

end
-- ==== Proof.RegionArrays.lean ====
/-
  From blocks to arrays: what each of the two regions leaves in its output array.

  Each region runs its body at 25 grid points; point t reads rows 4000·t … 4000·t + 3999 of its row-blocked
  operands (and the whole of its small operands, whose block does not move) and writes back the same rows of its
  output. The blocks tile the output array, so the array ends as ONE function of the arrays the region found:

    * the projection region: entry (i, l) is (X · W)(i, l) · d(i), the whole matrix product scaled row by row;
    * the decoder region: entry (i, j) is the three dense layers of row i of the scaled aggregate (defined below
      as whole arrays, layer by layer).
-/
import proofs.«159128_j9998683865331_2_alg».proof.Proof.Gen.KernelIdeal.Frame
import proofs.«159128_j9998683865331_2_alg».proof.Proof.BlockEntries

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Block
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The projection region -/

/-- The whole product scaled row by row: what the projection region's output array ends holding. -/
def projected (wa : DotDims.WF ⟨2, ![100000, 256]⟩ ⟨2, ![256, 128]⟩ ⟨2, ![100000, 128]⟩ [1] [0] [0] [1] [] [])
    (X : S100000x256.Idx → Elt Ideal .f32) (W : S256x128.Idx → Elt Ideal .f32) (d : S100000x1.Idx → Elt Ideal .f32) :
    S100000x128.Idx → Elt Ideal .bf16 := fun i =>
  (show EReal from
    (Host.dotGeneral (F := Ideal) (⟨[1], [0], [0], [1], [], [], wa⟩ : DotDims ⟨2, ![100000, 256]⟩ ⟨2, ![256, 128]⟩ ⟨2, ![100000, 128]⟩) none
      (φ₁ := .f32) (φ₂ := .f32) X W i : EReal) * (d (ix2 (i 0) (0 : Fin 1)) : EReal))

/-- The printed index maps of the projection region, decided over its grid: the row-blocked windows sit at block
    row `t`, block column 0; the weights' block does not move. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the scaled product of the arrays the region finds. -/
theorem flushed0_eq (wa : DotDims.WF ⟨2, ![100000, 256]⟩ ⟨2, ![256, 128]⟩ ⟨2, ![100000, 128]⟩ [1] [0] [0] [1] [] [])
    (c : Dev nD) (t : Fin cfg0.N) :
    (dat0 V c).flushed 3 t = ((cfg0.win 3).blk t).view.read (Elt Ideal)
      (projected wa (V c main_arg0) (V c main_arg2) (V c main_v17)) := by
  show (cfg0.win 3).cut (grid0.coords t) ((dat0 V c).after 3 t) = _
  rw [after0_3]
  unfold out0_3
  rw [View.canon_unit_zero zero_offsets]
  simp only [View.ld_unit_zero (S := S4000x256) zero_offsets, View.ld_unit_zero (S := S256x128) zero_offsets,
    View.ld_unit_zero (S := S4000x1) zero_offsets]
  obtain ⟨e00, e01, e10, e11, e20, e21, e30, e31⟩ := index_facts0 t
  have ht : t.val < 25 := Nat.lt_of_lt_of_eq t.isLt (show cfg0.N = 25 from N_0)
  funext y
  obtain ⟨p, l, rfl⟩ : ∃ (p : Fin 4000) (l : Fin 128), y = ix2 p l := ⟨y 0, y 1, eq_ix2 y⟩
  -- the row of the array that row `p` of block `t` is
  have hr : t.val * 4000 + p.val < 100000 := by have := p.isLt; omega
  have hemb : ((cfg0.win 3).blk t).view.emb (ix2 p l) = ix2 (⟨t.val * 4000 + p.val, hr⟩ : Fin 100000) l := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * l.val = l.val; omega
  show k0_pay1 (iblk0 V c 0 t) (iblk0 V c 1 t) (iblk0 V c 2 t) (ix2 p l)
    = projected wa (V c main_arg0) (V c main_arg2) (V c main_v17) (((cfg0.win 3).blk t).view.emb (ix2 p l))
  rw [hemb]
  -- the three input blocks, read where the output's rectangle says
  have hx : ∀ k : Fin 256, iblk0 V c 0 t (ix2 p k) = V c main_arg0 (ix2 (⟨t.val * 4000 + p.val, hr⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  have hw : iblk0 V c 1 t = V c main_arg2 := funext fun y => by
    show V c main_arg2 (((cfg0.win 1).blk t).view.emb y) = _
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  have hd : iblk0 V c 2 t (ix2 p (0 : Fin 1)) = V c main_v17 (ix2 (⟨t.val * 4000 + p.val, hr⟩ : Fin 100000) (0 : Fin 1)) := by
    show V c main_v17 (((cfg0.win 2).blk t).view.emb (ix2 p (0 : Fin 1))) = _
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega
  refine (projection_entry wa (iblk0 V c 0 t) (iblk0 V c 1 t) (iblk0 V c 2 t) (V c main_arg0) p ⟨t.val * 4000 + p.val, hr⟩ l hx).trans ?_
  rw [hw, hd]
  rfl

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v18).slice (win0_3.rect t)).set ↔ _
  rw [View.set_slice_whole, Rect.mem_set_unit]
  exact Iff.rfl

/-- The 25 blocks tile the output array: row `i` is in block `i / 4000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, e30, e31⟩ := index_facts0 t
  have htv : t.val = (i 0).val / 4000 := rfl
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE PROJECTION REGION'S OUTPUT ARRAY after the region: the scaled product of the arrays it found. -/
theorem final0 (wa : DotDims.WF ⟨2, ![100000, 256]⟩ ⟨2, ![256, 128]⟩ ⟨2, ![100000, 128]⟩ [1] [0] [0] [1] [] [])
    (c : Dev nD) : (dat0 V c).arrAt 3 cfg0.N = projected wa (V c main_arg0) (V c main_arg2) (V c main_v17) :=
  (dat0 V c).arrAt_eq_of_cover 3 _ (fun t _ => flushed0_eq V wa c t) cover0

/-! ## The decoder region -/

/-- The hidden layer as a whole array: the aggregate scaled row by row, plus its bias row, clipped below at zero. -/
def hidden (A : S100000x128.Idx → Elt Ideal .f32) (d : S100000x1.Idx → Elt Ideal .f32) (b0 : S1x128.Idx → Elt Ideal .f32) :
    FVec Ideal ⟨2, ![100000, 128]⟩ .f32 := fun i =>
  (show EReal from max ((A i : EReal) * (d (ix2 (i 0) (0 : Fin 1)) : EReal) + (b0 (ix2 (0 : Fin 1) (i 1)) : EReal))
    (Ideal.ofBits .f32 0x00000000#32))

/-- The code layer as a whole array: the hidden layer times its weights, plus its bias row. -/
def code (wa1 : DotDims.WF ⟨2, ![100000, 128]⟩ ⟨2, ![128, 64]⟩ ⟨2, ![100000, 64]⟩ [1] [0] [0] [1] [] [])
    (H : FVec Ideal ⟨2, ![100000, 128]⟩ .f32) (W : S128x64.Idx → Elt Ideal .f32) (b : S1x64.Idx → Elt Ideal .f32) :
    FVec Ideal ⟨2, ![100000, 64]⟩ .f32 := fun i =>
  (show EReal from (Host.dotGeneral (F := Ideal) (⟨[1], [0], [0], [1], [], [], wa1⟩ : DotDims ⟨2, ![100000, 128]⟩ ⟨2, ![128, 64]⟩ ⟨2, ![100000, 64]⟩)
      none (φ₁ := .f32) (φ₂ := .f32) H W i : EReal) + (b (ix2 (0 : Fin 1) (i 1)) : EReal))

/-- The first decoder layer as a whole array: the code times its weights, plus its bias row, clipped below at zero. -/
def decoded (wa2 : DotDims.WF ⟨2, ![100000, 64]⟩ ⟨2, ![64, 128]⟩ ⟨2, ![100000, 128]⟩ [1] [0] [0] [1] [] [])
    (Z : FVec Ideal ⟨2, ![100000, 64]⟩ .f32) (W : S64x128.Idx → Elt Ideal .f32) (b : S1x128.Idx → Elt Ideal .f32) :
    FVec Ideal ⟨2, ![100000, 128]⟩ .f32 := fun i =>
  (show EReal from max ((Host.dotGeneral (F := Ideal) (⟨[1], [0], [0], [1], [], [], wa2⟩ : DotDims ⟨2, ![100000, 64]⟩ ⟨2, ![64, 128]⟩ ⟨2, ![100000, 128]⟩)
      none (φ₁ := .f32) (φ₂ := .f32) Z W i : EReal) + (b (ix2 (0 : Fin 1) (i 1)) : EReal)) (Ideal.ofBits .f32 0x00000000#32))

/-- The last decoder layer as a whole array: what the decoder region's output array ends holding. -/
def output (wa3 : DotDims.WF ⟨2, ![100000, 128]⟩ ⟨2, ![128, 256]⟩ ⟨2, ![100000, 256]⟩ [1] [0] [0] [1] [] [])
    (G : FVec Ideal ⟨2, ![100000, 128]⟩ .f32) (W : S128x256.Idx → Elt Ideal .f32) (b : S1x256.Idx → Elt Ideal .f32) :
    S100000x256.Idx → Elt Ideal .f32 := fun i =>
  (show EReal from (Host.dotGeneral (F := Ideal) (⟨[1], [0], [0], [1], [], [], wa3⟩ : DotDims ⟨2, ![100000, 128]⟩ ⟨2, ![128, 256]⟩ ⟨2, ![100000, 256]⟩)
      none (φ₁ := .f32) (φ₂ := .f32) G W i : EReal) + (b (ix2 (0 : Fin 1) (i 1)) : EReal))

/-- The printed index maps of the decoder region, decided over its grid: the aggregate, the factors and the output
    sit at block row `t`, block column 0; the weights' and biases' blocks do not move. -/
theorem index_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- WHAT POINT `t` WRITES BACK is block `t` of the last decoder layer of the arrays the region finds. -/
theorem flushed1_eq (wa1 : DotDims.WF ⟨2, ![100000, 128]⟩ ⟨2, ![128, 64]⟩ ⟨2, ![100000, 64]⟩ [1] [0] [0] [1] [] [])
    (wa2 : DotDims.WF ⟨2, ![100000, 64]⟩ ⟨2, ![64, 128]⟩ ⟨2, ![100000, 128]⟩ [1] [0] [0] [1] [] [])
    (wa3 : DotDims.WF ⟨2, ![100000, 128]⟩ ⟨2, ![128, 256]⟩ ⟨2, ![100000, 256]⟩ [1] [0] [0] [1] [] [])
    (c : Dev nD) (t : Fin cfg1.N) :
    (dat1 V c).flushed 9 t = ((cfg1.win 9).blk t).view.read (Elt Ideal)
      (output wa3 (decoded wa2 (code wa1 (hidden (V c main_v29) (V c main_v17) (V c main_v30)) (V c main_arg4) (V c main_v31))
        (V c main_arg6) (V c main_v32)) (V c main_arg8) (V c main_v33)) := by
  show (cfg1.win 9).cut (grid1.coords t) ((dat1 V c).after 9 t) = _
  rw [after1_9]
  unfold out1_9
  rw [View.canon_unit_zero zero_offsets]
  simp only [View.ld_unit_zero (S := S4000x128) zero_offsets,
    View.ld_unit_zero (S := S4000x1) zero_offsets,
    View.ld_unit_zero (S := S1x128) zero_offsets,
    View.ld_unit_zero (S := S128x64) zero_offsets,
    View.ld_unit_zero (S := S1x64) zero_offsets,
    View.ld_unit_zero (S := S64x128) zero_offsets,
    View.ld_unit_zero (S := S128x256) zero_offsets,
    View.ld_unit_zero (S := S1x256) zero_offsets]
  obtain ⟨f00, f01, f10, f11, f20, f21, f30, f31, f40, f41, f50, f51, f60, f61, f70, f71, f80, f81, f90, f91⟩ := index_facts1 t
  have ht : t.val < 25 := Nat.lt_of_lt_of_eq t.isLt (show cfg1.N = 25 from N_1)
  funext y
  obtain ⟨p, j, rfl⟩ : ∃ (p : Fin 4000) (j : Fin 256), y = ix2 p j := ⟨y 0, y 1, eq_ix2 y⟩
  have hr : t.val * 4000 + p.val < 100000 := by have := p.isLt; omega
  have hemb : ((cfg1.win 9).blk t).view.emb (ix2 p j) = ix2 (⟨t.val * 4000 + p.val, hr⟩ : Fin 100000) j := by
    funext a; apply Fin.ext
    match a with
    | ⟨0, _⟩ => show win1_9.index t (0 : Fin 2) * 4000 + 1 * p.val = t.val * 4000 + p.val; omega
    | ⟨1, _⟩ => show win1_9.index t (1 : Fin 2) * 256 + 1 * j.val = j.val; omega
  show k1_pay1 (k1_pay2 (iblk1 V c 0 t) (iblk1 V c 1 t) (iblk1 V c 2 t) (iblk1 V c 3 t) (iblk1 V c 4 t) (iblk1 V c 5 t)
        (iblk1 V c 6 t) (iblk1 V c 7 t)) (k1_pay3 (iblk1 V c 8 t)) (ix2 p j)
    = (output wa3 (decoded wa2 (code wa1 (hidden (V c main_v29) (V c main_v17) (V c main_v30)) (V c main_arg4) (V c main_v31))
        (V c main_arg6) (V c main_v32)) (V c main_arg8) (V c main_v33)) (((cfg1.win 9).blk t).view.emb (ix2 p j))
  rw [hemb]
  -- the row-blocked operands, read where the output's rectangle says
  have ha : ∀ a : Fin 128, iblk1 V c 0 t (ix2 p a) = V c main_v29 (ix2 (⟨t.val * 4000 + p.val, hr⟩ : Fin 100000) a) := fun a => by
    show V c main_v29 (((cfg1.win 0).blk t).view.emb (ix2 p a)) = _
    refine congrArg _ (funext fun ax => Fin.ext ?_)
    match ax with
    | ⟨0, _⟩ => show win1_0.index t (0 : Fin 2) * 4000 + 1 * p.val = t.val * 4000 + p.val; omega
    | ⟨1, _⟩ => show win1_0.index t (1 : Fin 2) * 128 + 1 * a.val = a.val; omega
  have hd : iblk1 V c 1 t (ix2 p (0 : Fin 1)) = V c main_v17 (ix2 (⟨t.val * 4000 + p.val, hr⟩ : Fin 100000) (0 : Fin 1)) := by
    show V c main_v17 (((cfg1.win 1).blk t).view.emb (ix2 p (0 : Fin 1))) = _
    refine congrArg _ (funext fun ax => Fin.ext ?_)
    match ax with
    | ⟨0, _⟩ => show win1_1.index t (0 : Fin 2) * 4000 + 1 * p.val = t.val * 4000 + p.val; omega
    | ⟨1, _⟩ => show win1_1.index t (1 : Fin 2) * 1 + 1 * 0 = 0; omega
  -- the operands whose block is the whole array
  have hw2 : iblk1 V c 2 t = V c main_v30 := funext fun y => by
    show V c main_v30 (((cfg1.win 2).blk t).view.emb y) = _
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  have hw3 : iblk1 V c 3 t = V c main_arg4 := funext fun y => by
    show V c main_arg4 (((cfg1.win 3).blk t).view.emb y) = _
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  have hw4 : iblk1 V c 4 t = V c main_v31 := funext fun y => by
    show V c main_v31 (((cfg1.win 4).blk t).view.emb y) = _
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  have hw5 : iblk1 V c 5 t = V c main_arg6 := funext fun y => by
    show V c main_arg6 (((cfg1.win 5).blk t).view.emb y) = _
    refine congrArg _ (funext fun a => Fin.ext ?_)
    match a with
    | ⟨0, _⟩ => show win1_5.index t (0 : Fin 2) * 64 + 1 * (y 0).val = (y 0).val; omega
    | ⟨1, _⟩ => show win1_5.index t (1 : Fin 2) * 128 + 1 * (y 1).val = (y 1).val; omega
  have hw6 : iblk1 V c 6 t = V c main_v32 := funext fun y => by
    show V c main_v32 (((cfg1.win 6).blk t).view.emb y) = _
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  have hw7 : iblk1 V c 7 t = V c main_arg8 := funext fun y => by
    show V c main_arg8 (((cfg1.win 7).blk t).view.emb y) = _
    refine congrArg _ (funext fun a => Fin.ext ?_)
    match a with
    | ⟨0, _⟩ => show win1_7.index t (0 : Fin 2) * 128 + 1 * (y 0).val = (y 0).val; omega
    | ⟨1, _⟩ => show win1_7.index t (1 : Fin 2) * 256 + 1 * (y 1).val = (y 1).val; omega
  have hw8 : iblk1 V c 8 t = V c main_v33 := funext fun y => by
    show V c main_v33 (((cfg1.win 8).blk t).view.emb y) = _
    refine congrArg _ (funext fun a => Fin.ext ?_)
    match a with
    | ⟨0, _⟩ => show win1_8.index t (0 : Fin 2) * 1 + 1 * (y 0).val = (y 0).val; omega
    | ⟨1, _⟩ => show win1_8.index t (1 : Fin 2) * 256 + 1 * (y 1).val = (y 1).val; omega
  refine (decoder_entry wa1 wa2 wa3 (iblk1 V c 0 t) (iblk1 V c 1 t) (iblk1 V c 2 t) (iblk1 V c 3 t) (iblk1 V c 4 t) (iblk1 V c 5 t)
    (iblk1 V c 6 t) (iblk1 V c 7 t) (iblk1 V c 8 t)
    (hidden (V c main_v29) (V c main_v17) (V c main_v30))
    (code wa1 (hidden (V c main_v29) (V c main_v17) (V c main_v30)) (V c main_arg4) (V c main_v31))
    (decoded wa2 (code wa1 (hidden (V c main_v29) (V c main_v17) (V c main_v30)) (V c main_arg4) (V c main_v31)) (V c main_arg6) (V c main_v32))
    p ⟨t.val * 4000 + p.val, hr⟩ j (fun a => ?_) (fun b => ?_) (fun g => ?_)).trans ?_
  · rw [ha a, hd, hw2]; rfl
  · rw [hw3, hw4]; rfl
  · rw [hw5, hw6]; rfl
  · rw [hw7, hw8]; rfl

/-- An index of the output array is in point `t`'s block iff each coordinate is in the block's range on its axis. -/
theorem mem_blk1 (t : Fin cfg1.N) (i : S100000x256.Idx) :
    i ∈ ((cfg1.win 9).blk t).view.set ↔ ∀ a : Fin 2, win1_9.index t a * S4000x256.size a ≤ (i a).val ∧ (i a).val < win1_9.index t a * S4000x256.size a + S4000x256.size a := by
  show i ∈ ((View.whole main_v34).slice (win1_9.rect t)).set ↔ _
  rw [View.set_slice_whole, Rect.mem_set_unit]
  exact Iff.rfl

/-- The 25 blocks tile the output array: row `i` is in block `i / 4000`. -/
theorem cover1 (i : S100000x256.Idx) : ∃ t : Fin cfg1.N, (cfg1.win 9).flush t = true ∧ i ∈ ((cfg1.win 9).blk t).view.set := by
  have hi0 : (i 0).val < 100000 := (i 0).isLt
  have hi1 : (i 1).val < 256 := (i 1).isLt
  have hN : cfg1.N = 25 := N_1
  let t : Fin cfg1.N := ⟨(i 0).val / 4000, by rw [hN]; omega⟩
  obtain ⟨-, -, -, -, -, -, -, -, -, -, -, -, -, -, -, -, -, -, f90, f91⟩ := index_facts1 t
  have htv : t.val = (i 0).val / 4000 := rfl
  refine ⟨t, flush1_9 t, ?_⟩
  rw [mem_blk1]
  intro a
  match a with
  | ⟨0, _⟩ => show win1_9.index t (0 : Fin 2) * 4000 ≤ (i 0).val ∧ (i 0).val < win1_9.index t (0 : Fin 2) * 4000 + 4000; omega
  | ⟨1, _⟩ => show win1_9.index t (1 : Fin 2) * 256 ≤ (i 1).val ∧ (i 1).val < win1_9.index t (1 : Fin 2) * 256 + 256; omega

/-- THE DECODER REGION'S OUTPUT ARRAY after the region: the last decoder layer of the arrays it found. -/
theorem final1 (wa1 : DotDims.WF ⟨2, ![100000, 128]⟩ ⟨2, ![128, 64]⟩ ⟨2, ![100000, 64]⟩ [1] [0] [0] [1] [] [])
    (wa2 : DotDims.WF ⟨2, ![100000, 64]⟩ ⟨2, ![64, 128]⟩ ⟨2, ![100000, 128]⟩ [1] [0] [0] [1] [] [])
    (wa3 : DotDims.WF ⟨2, ![100000, 128]⟩ ⟨2, ![128, 256]⟩ ⟨2, ![100000, 256]⟩ [1] [0] [0] [1] [] [])
    (c : Dev nD) : (dat1 V c).arrAt 9 cfg1.N
      = (output wa3 (decoded wa2 (code wa1 (hidden (V c main_v29) (V c main_v17) (V c main_v30)) (V c main_arg4) (V c main_v31))
        (V c main_arg6) (V c main_v32)) (V c main_arg8) (V c main_v33)) :=
  (dat1 V c).arrAt_eq_of_cover 9 _ (fun t _ => flushed1_eq V wa1 wa2 wa3 c t) cover1

end Cert.KernelIdeal.Arrays

end
-- ==== Proof.RefParts.lean ====
/-
  The reference program's result, named piece by piece.

  From the edge list e (two rows of 1,600,000 integers) the reference forms the source rows and the destination rows
  (each with the 100,000 self loops appended), the in-degree of every node (a scatter-add of ones along the
  destination rows), the normaliser dis = 1/√(max deg ε) where deg > 0 and 0 elsewhere, the aggregate
      agg(i, l) = Σ_{edges landing on i} (x · W)(src, l) · (dis(src) · dis(dst)),
  and a tail of three dense layers with two clippings at zero. The composed term the reference's run states is
  literally the composition of these pieces.
-/
import proofs.«159128_j9998683865331_2_alg».proof.Proof.RefRun
import Idealize.ShloMosaic.PureOps.Ideal

set_option maxRecDepth 65536

noncomputable section

namespace Cert.ReferenceIdeal.Parts

open Cert.ReferenceIdeal Cert.ReferenceIdeal.Gen Idealize.ShloMosaic Idealize.ShloMosaic.TcCoe Idealize.SL.Sem

/-- The source row of every edge: the first row of the edge list, then the self loops 0 … 99999. -/
def srcRows (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The destination row of every edge: the second row of the edge list, then the self loops. -/
def dstRows (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- Negative row numbers wrapped by the number of rows (what an indexing `a[idx]` does before it gathers). -/
def wrap (v : IVec S1700000 32) : IVec S1700000 32 :=
  (select (cmpi .slt v (broadcastInDim S1700000 ![] bcast_S_S1700000 (constantI S_ 32 0#32))) (addi v (broadcastInDim S1700000 ![] bcast_S_S1700000 (constantI S_ 32 100000#32))) v)

/-- A list of row numbers as one column of start indices. -/
def column (v : IVec S1700000 32) : IVec S1700000x1 32 :=
  (broadcastInDim S1700000x1 ![0] bcast_S1700000_S1700000x1_0 v)

/-- The in-degree of every node, self loop included: ones added up along the destination rows. -/
def degree (e : IVec S2x1600000 32) : FVec Ideal S100000 .f32 :=
  (Host.scatterAdd scatter_S100000_S1700000x1_S1700000_n_0_0_1 (broadcastInDim S100000 ![] bcast_S_S100000 (constant S_ .f32 0x00000000#32)) (column (dstRows e)) (broadcastInDim S1700000 ![] bcast_S_S1700000 (constant S_ .f32 0x3F800000#32)))

/-- The normaliser of every node: the reciprocal square root of its degree (kept above ε), where the degree is
    positive, and zero elsewhere. -/
def normaliser (e : IVec S2x1600000 32) : FVec Ideal S100000 .f32 :=
  (select (cmpf (F := Ideal) .ogt (degree e) (broadcastInDim S100000 ![] bcast_S_S100000 (constant S_ .f32 0x00000000#32))) (Host.rsqrt (maximumf (degree e) (broadcastInDim S100000 ![] bcast_S_S100000 (constant S_ .f32 0x2B8CBCCC#32)))) (broadcastInDim S100000 ![] bcast_S_S100000 (id (constant S_ .f32 0x00000000#32))))

/-- The projected features `x · W`. -/
def projection (x : FVec Ideal S100000x256 .f32) (w : FVec Ideal S256x128 .f32) :
    FVec Ideal S100000x128 .f32 :=
  Host.dotGeneral dot_S100000x256_S256x128_S100000x128_1_0_0_1_n_n none x w

/-- The per-edge messages: the projected row of the edge's source, scaled by the two normalisers of its ends. -/
def messages (x : FVec Ideal S100000x256 .f32) (w : FVec Ideal S256x128 .f32)
    (e : IVec S2x1600000 32) : FVec Ideal S1700000x128 .f32 :=
  (mulf (Host.gather gather_S100000x128_S1700000x1_S1700000x128_1_0_n_n_0_1_1128 (projection x w) (column (wrap (srcRows e)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (normaliser e) (column (wrap (srcRows e)))) (Host.gather gather_S100000_S1700000x1_S1700000_n_0_n_n_0_1_1 (normaliser e) (column (wrap (dstRows e))))))))

/-- The aggregate: the messages added up along the destination rows, into zeros. -/
def aggregate (x : FVec Ideal S100000x256 .f32) (w : FVec Ideal S256x128 .f32)
    (e : IVec S2x1600000 32) : FVec Ideal S100000x128 .f32 :=
  (Host.scatterAdd scatter_S100000x128_S1700000x1_S1700000x128_1_0_0_1 (broadcastInDim S100000x128 ![] bcast_S_S100000x128 (constant S_ .f32 0x00000000#32)) (column (dstRows e)) (messages x w e))

/-- The hidden layer: the aggregate plus its bias, clipped below at zero. -/
def hiddenLayer (a : FVec Ideal S100000x128 .f32) (b0 : FVec Ideal S128 .f32) : FVec Ideal S100000x128 .f32 :=
  (maximumf (addf a (broadcastInDim S100000x128 ![0, 1] bcast_S1x128_S100000x128_0_1 (broadcastInDim S1x128 ![1] bcast_S128_S1x128_1 b0))) (broadcastInDim S100000x128 ![] bcast_S_S100000x128 (constant S_ .f32 0x00000000#32)))

/-- The code layer. -/
def codeLayer (h : FVec Ideal S100000x128 .f32) (w1 : FVec Ideal S128x64 .f32) (b1 : FVec Ideal S64 .f32) :
    FVec Ideal S100000x64 .f32 :=
  (addf (Host.dotGeneral dot_S100000x128_S128x64_S100000x64_1_0_0_1_n_n none h w1) (broadcastInDim S100000x64 ![0, 1] bcast_S1x64_S100000x64_0_1 (broadcastInDim S1x64 ![1] bcast_S64_S1x64_1 b1)))

/-- The first decoder layer, clipped below at zero. -/
def decodedLayer (z : FVec Ideal S100000x64 .f32) (w2 : FVec Ideal S64x128 .f32) (b2 : FVec Ideal S128 .f32) :
    FVec Ideal S100000x128 .f32 :=
  (maximumf (addf (Host.dotGeneral dot_S100000x64_S64x128_S100000x128_1_0_0_1_n_n none z w2) (broadcastInDim S100000x128 ![0, 1] bcast_S1x128_S100000x128_0_1 (broadcastInDim S1x128 ![1] bcast_S128_S1x128_1 b2))) (broadcastInDim S100000x128 ![] bcast_S_S100000x128 (constant S_ .f32 0x00000000#32)))

/-- The last decoder layer. -/
def outputLayer (g : FVec Ideal S100000x128 .f32) (w3 : FVec Ideal S128x256 .f32) (b3 : FVec Ideal S256 .f32) :
    FVec Ideal S100000x256 .f32 :=
  addf (Host.dotGeneral dot_S100000x128_S128x256_S100000x256_1_0_0_1_n_n none g w3) (broadcastInDim S100000x256 ![0, 1] bcast_S1x256_S100000x256_0_1 (broadcastInDim S1x256 ![1] bcast_S256_S1x256_1 b3))

/-- THE REFERENCE'S RESULT is the composition of the pieces. -/
theorem result_eq (m : (ℓ : Loc nD τ sig) → Buf (Elt Ideal) ℓ) (c : Dev nD) :
    Cert.ReferenceIdeal.ValueP.res_main_v62 (F := Ideal) m c
      = outputLayer (decodedLayer (codeLayer (hiddenLayer
            (aggregate (m ((c.tc : Thread nD τ).loc main_arg0)) (m ((c.tc : Thread nD τ).loc main_arg2)) (m ((c.tc : Thread nD τ).loc main_arg1)))
            (m ((c.tc : Thread nD τ).loc main_arg3)))
          (m ((c.tc : Thread nD τ).loc main_arg4)) (m ((c.tc : Thread nD τ).loc main_arg5)))
          (m ((c.tc : Thread nD τ).loc main_arg6)) (m ((c.tc : Thread nD τ).loc main_arg7)))
        (m ((c.tc : Thread nD τ).loc main_arg8)) (m ((c.tc : Thread nD τ).loc main_arg9)) := rfl

end Cert.ReferenceIdeal.Parts

end
-- ==== Proof.HostStretches.lean ====
/-
  What the two regions of the kernel program find in their operand arrays, in terms of the arguments.

  Before the projection region the host computes the source and destination rows, the degrees and the normaliser
  dis — by the very operations the reference uses — and hands the region x, W and dis as a column. Between the
  regions it gathers the projection region's output along the source rows and adds the gathered rows up along the
  destination rows (the aggregate the decoder region scales by dis again), and reshapes the four bias vectors into
  rows. Each statement below reads one operand array of a region through the host operations before it.
-/
import proofs.«159128_j9998683865331_2_alg».proof.Proof.Gen.KernelIdeal.Frame
import proofs.«159128_j9998683865331_2_alg».proof.Proof.RegionArrays
import proofs.«159128_j9998683865331_2_alg».proof.Proof.RefParts
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen Cert.KernelIdeal.Arrays
open Cert.ReferenceIdeal.Parts (srcRows dstRows wrap column normaliser degree)

variable (m : (ℓ : Loc nD τ sig) → Buf (Elt Ideal) ℓ) (ρ : Dev nD → PrngReg)

/-! ## The projection region's operands -/

theorem entry0_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp

theorem entry0_w (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp

/-! The first stretch, read buffer by buffer: the degrees, the comparison and the reciprocal square root that the
    `where` selects between, and the `where` itself. -/

set_option maxHeartbeats 4000000 in
theorem stretch0_deg (c : Dev nD) : W1 m ρ c (Proc.devRef .tc main_v10) = degree (m ((c : Thread nD τ).loc main_arg1)) := by
  show StableHlo.after hostOps0 (W0 m ρ c) (Proc.devRef .tc main_v10) = _
  after_results_simp
  rfl

set_option maxHeartbeats 4000000 in
theorem stretch0_pos (c : Dev nD) : W1 m ρ c (Proc.devRef .tc main_v12)
    = cmpf (F := Ideal) .ogt (degree (m ((c : Thread nD τ).loc main_arg1))) (broadcastInDim S100000 ![] bcast_S_S100000 (constant (F := Ideal) S_ .f32 0x00000000#32)) := by
  show StableHlo.after hostOps0 (W0 m ρ c) (Proc.devRef .tc main_v12) = _
  after_results_simp
  rfl

set_option maxHeartbeats 4000000 in
theorem stretch0_rsqrt (c : Dev nD) : W1 m ρ c (Proc.devRef .tc main_v15)
    = Host.rsqrt (maximumf (degree (m ((c : Thread nD τ).loc main_arg1))) (broadcastInDim S100000 ![] bcast_S_S100000 (constant (F := Ideal) S_ .f32 0x2B8CBCCC#32))) := by
  show StableHlo.after hostOps0 (W0 m ρ c) (Proc.devRef .tc main_v15) = _
  after_results_simp
  rfl

theorem stretch0_zero (c : Dev nD) : W1 m ρ c (Proc.devRef .tc main_cst_3) = constant (F := Ideal) S_ .f32 0x00000000#32 := by
  show StableHlo.after hostOps0 (W0 m ρ c) (Proc.devRef .tc main_cst_3) = _
  after_results_simp

/-- The `where`, read over any contents of the buffers before it: it selects between its two operands by its
    condition, the scalar zero converted and repeated along the nodes. -/
theorem where_read (W : Valuation τ sig (Elt Ideal)) :
    StableHlo.after hostOps0_1 W (Proc.devRef .tc main_v16)
      = select (W (Proc.devRef .tc main_v12)) (W (Proc.devRef .tc main_v15))
          (broadcastInDim S100000 ![] bcast_S_S100000 (id (W (Proc.devRef .tc main_cst_3)))) := by
  after_results_simp
  rfl

/-- The reshape to a column, read over any contents of the buffers before it. -/
theorem column_read (W : Valuation τ sig (Elt Ideal)) :
    StableHlo.after hostOps0_2 W (Proc.devRef .tc main_v17)
      = shapeCast S100000x1 (W (Proc.devRef .tc main_v16)) shapeCasts_S100000_S100000x1 := by
  after_results_simp
  rfl

/-- The normaliser after the `where`. -/
theorem stretch1_dis (c : Dev nD) : W2 m ρ c (Proc.devRef .tc main_v16) = normaliser (m ((c : Thread nD τ).loc main_arg1)) := by
  refine (where_read (W1 m ρ c)).trans ?_
  rw [stretch0_pos, stretch0_rsqrt, stretch0_zero]
  unfold normaliser
  rfl

/-- The normaliser, as the column the projection region reads. -/
theorem entry0_d (c : Dev nD) :
    V3 m ρ c main_v17 = shapeCast S100000x1 (normaliser (m ((c : Thread nD τ).loc main_arg1))) shapeCasts_S100000_S100000x1 := by
  refine (column_read (W2 m ρ c)).trans ?_
  rw [stretch1_dis]

set_option maxHeartbeats 4000000 in
theorem rows3 (c : Dev nD) : W3 m ρ c (Proc.devRef .tc main_v3) = srcRows (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
theorem cols3 (c : Dev nD) : W3 m ρ c (Proc.devRef .tc main_v6) = dstRows (m ((c : Thread nD τ).loc main_arg1)) := by
  show StableHlo.after hostOps0_2 (StableHlo.after hostOps0_1 (StableHlo.after hostOps0 (W0 m ρ c))) (Proc.devRef .tc main_v6) = _
  after_results_simp
  rfl

/-! ## The decoder region's operands -/

/-- The kernel program's column of row numbers is the reference's. -/
theorem column_eq (v : IVec S1700000 32) : (broadcastInDim S1700000x1 ![0] bcast_S1700000_S1700000x1_0 v) = column v := rfl

/-- The kernel program's wrap of negative row numbers is the reference's. -/
theorem wrap_eq (v : IVec S1700000 32) : (select (cmpi .slt v (broadcastInDim S1700000 ![] bcast_S_S1700000 (constantI S_ 32 0#32))) (addi v (broadcastInDim S1700000 ![] bcast_S_S1700000 (constantI S_ 32 100000#32))) v) = wrap v := rfl

/-- What the projection region leaves in its output array: the product `x · W` scaled row by row by the normaliser. -/
theorem projected_out (wa0 : DotDims.WF ⟨2, ![100000, 256]⟩ ⟨2, ![256, 128]⟩ ⟨2, ![100000, 128]⟩ [1] [0] [0] [1] [] []) (c : Dev nD) :
    W4 m ρ c (Proc.devRef .tc main_v18) = (projected wa0 (m ((c : Thread nD τ).loc main_arg0)) (m ((c : Thread nD τ).loc main_arg2)) (shapeCast S100000x1 (normaliser (m ((c : Thread nD τ).loc main_arg1))) shapeCasts_S100000_S100000x1)) := by
  refine (W4_arr m ρ c 3).trans ((final0 (V3 m ρ) wa0 c).trans ?_)
  rw [entry0_x, entry0_w, entry0_d]

/-- The second stretch's aggregate, read over any contents of the buffers before it: the rows of the projection
    region's output gathered along the wrapped source rows, added up along the destination rows into zeros. -/
theorem aggregate_read (W : Valuation τ sig (Elt Ideal)) :
    StableHlo.after hostOps1 W (Proc.devRef .tc main_v29)
      = Host.scatterAdd scatter_S100000x128_S1700000x1_S1700000x128_1_0_0_1
          (broadcastInDim S100000x128 ![] bcast_S_S100000x128 (constant (F := Ideal) S_ .f32 0x00000000#32))
          (broadcastInDim S1700000x1 ![0] bcast_S1700000_S1700000x1_0 (W (Proc.devRef .tc main_v6)))
          (extf .f32 (Host.gather gather_S100000x128_S1700000x1_S1700000x128_1_0_n_n_0_1_1128 (W (Proc.devRef .tc main_v18)) (broadcastInDim S1700000x1 ![0] bcast_S1700000_S1700000x1_0 (select (cmpi .slt (W (Proc.devRef .tc main_v3)) (broadcastInDim S1700000 ![] bcast_S_S1700000 (constantI S_ 32 0#32))) (addi (W (Proc.devRef .tc main_v3)) (broadcastInDim S1700000 ![] bcast_S_S1700000 (constantI S_ 32 100000#32))) (W (Proc.devRef .tc main_v3))))) bitsLt_bf16_f32) := by
  after_results_simp

/-- The aggregate the decoder region reads, in terms of the arguments. -/
theorem entry1_a (wa0 : DotDims.WF ⟨2, ![100000, 256]⟩ ⟨2, ![256, 128]⟩ ⟨2, ![100000, 128]⟩ [1] [0] [0] [1] [] []) (c : Dev nD) :
    V5 m ρ c main_v29
      = Host.scatterAdd scatter_S100000x128_S1700000x1_S1700000x128_1_0_0_1
          (broadcastInDim S100000x128 ![] bcast_S_S100000x128 (constant (F := Ideal) S_ .f32 0x00000000#32))
          (column (dstRows (m ((c : Thread nD τ).loc main_arg1))))
          (extf .f32 (Host.gather gather_S100000x128_S1700000x1_S1700000x128_1_0_n_n_0_1_1128 (projected wa0 (m ((c : Thread nD τ).loc main_arg0)) (m ((c : Thread nD τ).loc main_arg2)) (shapeCast S100000x1 (normaliser (m ((c : Thread nD τ).loc main_arg1))) shapeCasts_S100000_S100000x1)) (column (wrap (srcRows (m ((c : Thread nD τ).loc main_arg1)))))) bitsLt_bf16_f32) := by
  refine (aggregate_read (W4 m ρ c)).trans ?_
  rw [W4_of_ne m ρ c main_v6 (by decide), W4_of_ne m ρ c main_v3 (by decide), cols3, rows3, projected_out m ρ wa0 c,
    wrap_eq, column_eq, column_eq]

/-- The normaliser column, read over any contents of the buffers before the second stretch: it is not written. -/
theorem dis_read (W : Valuation τ sig (Elt Ideal)) :
    StableHlo.after hostOps1 W (Proc.devRef .tc main_v17) = W (Proc.devRef .tc main_v17) := by
  after_results_simp

/-- The normaliser column the decoder region reads is the one the projection region read. -/
theorem entry1_d (c : Dev nD) :
    V5 m ρ c main_v17 = shapeCast S100000x1 (normaliser (m ((c : Thread nD τ).loc main_arg1))) shapeCasts_S100000_S100000x1 :=
  (dis_read (W4 m ρ c)).trans ((W4_arr m ρ c 2).trans (((dat0 (V3 m ρ) c).arrAt_in 2 rfl _).trans
    ((A_eq0 (V3 m ρ) c 2).trans (entry0_d m ρ c))))

/-! The arguments the second stretch and the decoder region read are as launched: no operation before them writes
    an argument, and the projection region's arrays are other buffers. -/

theorem launch_arg3 (c : Dev nD) : W4 m ρ c (Proc.devRef .tc main_arg3) = m ((c : Thread nD τ).loc main_arg3) := by
  rw [W4_of_ne m ρ c main_arg3 (by decide)]
  show StableHlo.after hostOps0_2 (StableHlo.after hostOps0_1 (StableHlo.after hostOps0 (W0 m ρ c))) (Proc.devRef .tc main_arg3) = _
  after_results_simp

theorem launch_arg4 (c : Dev nD) : W4 m ρ c (Proc.devRef .tc main_arg4) = m ((c : Thread nD τ).loc main_arg4) := by
  rw [W4_of_ne m ρ c main_arg4 (by decide)]
  show StableHlo.after hostOps0_2 (StableHlo.after hostOps0_1 (StableHlo.after hostOps0 (W0 m ρ c))) (Proc.devRef .tc main_arg4) = _
  after_results_simp

theorem launch_arg5 (c : Dev nD) : W4 m ρ c (Proc.devRef .tc main_arg5) = m ((c : Thread nD τ).loc main_arg5) := by
  rw [W4_of_ne m ρ c main_arg5 (by decide)]
  show StableHlo.after hostOps0_2 (StableHlo.after hostOps0_1 (StableHlo.after hostOps0 (W0 m ρ c))) (Proc.devRef .tc main_arg5) = _
  after_results_simp

theorem launch_arg6 (c : Dev nD) : W4 m ρ c (Proc.devRef .tc main_arg6) = m ((c : Thread nD τ).loc main_arg6) := by
  rw [W4_of_ne m ρ c main_arg6 (by decide)]
  show StableHlo.after hostOps0_2 (StableHlo.after hostOps0_1 (StableHlo.after hostOps0 (W0 m ρ c))) (Proc.devRef .tc main_arg6) = _
  after_results_simp

theorem launch_arg7 (c : Dev nD) : W4 m ρ c (Proc.devRef .tc main_arg7) = m ((c : Thread nD τ).loc main_arg7) := by
  rw [W4_of_ne m ρ c main_arg7 (by decide)]
  show StableHlo.after hostOps0_2 (StableHlo.after hostOps0_1 (StableHlo.after hostOps0 (W0 m ρ c))) (Proc.devRef .tc main_arg7) = _
  after_results_simp

theorem launch_arg8 (c : Dev nD) : W4 m ρ c (Proc.devRef .tc main_arg8) = m ((c : Thread nD τ).loc main_arg8) := by
  rw [W4_of_ne m ρ c main_arg8 (by decide)]
  show StableHlo.after hostOps0_2 (StableHlo.after hostOps0_1 (StableHlo.after hostOps0 (W0 m ρ c))) (Proc.devRef .tc main_arg8) = _
  after_results_simp

theorem launch_arg9 (c : Dev nD) : W4 m ρ c (Proc.devRef .tc main_arg9) = m ((c : Thread nD τ).loc main_arg9) := by
  rw [W4_of_ne m ρ c main_arg9 (by decide)]
  show StableHlo.after hostOps0_2 (StableHlo.after hostOps0_1 (StableHlo.after hostOps0 (W0 m ρ c))) (Proc.devRef .tc main_arg9) = _
  after_results_simp

theorem b0_read (W : Valuation τ sig (Elt Ideal)) :
    StableHlo.after hostOps1 W (Proc.devRef .tc main_v30) = shapeCast S1x128 (W (Proc.devRef .tc main_arg3)) shapeCasts_S128_S1x128 := by
  after_results_simp
  rfl

theorem entry1_b0 (c : Dev nD) : V5 m ρ c main_v30 = shapeCast S1x128 (m ((c : Thread nD τ).loc main_arg3)) shapeCasts_S128_S1x128 := by
  refine (b0_read (W4 m ρ c)).trans ?_
  rw [launch_arg3]

theorem b1_read (W : Valuation τ sig (Elt Ideal)) :
    StableHlo.after hostOps1 W (Proc.devRef .tc main_v31) = shapeCast S1x64 (W (Proc.devRef .tc main_arg5)) shapeCasts_S64_S1x64 := by
  after_results_simp
  rfl

theorem entry1_b1 (c : Dev nD) : V5 m ρ c main_v31 = shapeCast S1x64 (m ((c : Thread nD τ).loc main_arg5)) shapeCasts_S64_S1x64 := by
  refine (b1_read (W4 m ρ c)).trans ?_
  rw [launch_arg5]

theorem b2_read (W : Valuation τ sig (Elt Ideal)) :
    StableHlo.after hostOps1 W (Proc.devRef .tc main_v32) = shapeCast S1x128 (W (Proc.devRef .tc main_arg7)) shapeCasts_S128_S1x128 := by
  after_results_simp
  rfl

theorem entry1_b2 (c : Dev nD) : V5 m ρ c main_v32 = shapeCast S1x128 (m ((c : Thread nD τ).loc main_arg7)) shapeCasts_S128_S1x128 := by
  refine (b2_read (W4 m ρ c)).trans ?_
  rw [launch_arg7]

theorem b3_read (W : Valuation τ sig (Elt Ideal)) :
    StableHlo.after hostOps1 W (Proc.devRef .tc main_v33) = shapeCast S1x256 (W (Proc.devRef .tc main_arg9)) shapeCasts_S256_S1x256 := by
  after_results_simp
  rfl

theorem entry1_b3 (c : Dev nD) : V5 m ρ c main_v33 = shapeCast S1x256 (m ((c : Thread nD τ).loc main_arg9)) shapeCasts_S256_S1x256 := by
  refine (b3_read (W4 m ρ c)).trans ?_
  rw [launch_arg9]

theorem entry1_w1 (c : Dev nD) : V5 m ρ c main_arg4 = m ((c : Thread nD τ).loc main_arg4) := by
  refine Eq.trans ?_ (launch_arg4 m ρ c)
  show StableHlo.after hostOps1 (W4 m ρ c) (Proc.devRef .tc main_arg4) = _
  generalize W4 m ρ c = W
  after_results_simp

theorem entry1_w2 (c : Dev nD) : V5 m ρ c main_arg6 = m ((c : Thread nD τ).loc main_arg6) := by
  refine Eq.trans ?_ (launch_arg6 m ρ c)
  show StableHlo.after hostOps1 (W4 m ρ c) (Proc.devRef .tc main_arg6) = _
  generalize W4 m ρ c = W
  after_results_simp

theorem entry1_w3 (c : Dev nD) : V5 m ρ c main_arg8 = m ((c : Thread nD τ).loc main_arg8) := by
  refine Eq.trans ?_ (launch_arg8 m ρ c)
  show StableHlo.after hostOps1 (W4 m ρ c) (Proc.devRef .tc main_arg8) = _
  generalize W4 m ρ c = W
  after_results_simp

end Cert.KernelIdeal.Host

end
-- ==== Proof.LibScaleSum.lean ====
/-
  Two facts about the extended reals.

  * Multiplying a finite sum by a factor d with 0 ≤ d < ⊤ can be done term by term: (Σ f) · d = Σ (f · d). On the
    extended reals multiplication does not distribute over addition in general (⊤ + ⊥ = ⊥, and a negative factor
    swaps the two infinities), but it does for a nonnegative finite factor, and a finite sum follows by induction.
  * The reciprocal square root, applied to max x r with r a positive real, is a nonnegative finite number: the
    argument is either ⊤, where the reciprocal square root is 0, or a positive real, where it is a positive real.
-/
import Idealize.ShloMosaic.PureOps.Ideal
import Mathlib.Data.EReal.Operations

open scoped BigOperators

namespace Idealize.ShloMosaic.Ideal

/-- A factor `d` with `0 ≤ d` and `d ≠ ⊤` distributes over a finite sum of extended reals. -/
theorem sum_mul_of_nonneg_of_ne_top {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- `rsqrt (max x r)` for a positive real `r` is nonnegative and finite. -/
theorem rsqrt_max_pos_range (x : EReal) {r : ℝ} (hr : 0 < r) :
    0 ≤ Ideal.rsqrt (max x (r : EReal)) ∧ Ideal.rsqrt (max x (r : EReal)) ≠ ⊤ := by
  have hle : (r : EReal) ≤ max x (r : EReal) := le_max_right _ _
  induction h : max x (r : EReal) using EReal.rec with
  | bot => rw [h] at hle; exact absurd hle (by simp)
  | top => rw [Ideal.rsqrt_top]; exact ⟨le_refl _, EReal.zero_ne_top⟩
  | coe y =>
    rw [h] at hle
    have hy : 0 < y := lt_of_lt_of_le hr (by exact_mod_cast hle)
    have hs : 0 < Real.sqrt y := Real.sqrt_pos.mpr hy
    rw [Ideal.rsqrt_coe, if_neg (not_lt.mpr hy.le), if_neg hy.ne']
    exact ⟨by exact_mod_cast (inv_pos.mpr hs).le, EReal.coe_ne_top _⟩

end Idealize.ShloMosaic.Ideal
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.NormaliserFacts.lean ====
/-
  Facts about the reference's named pieces that the aggregation law uses.

  The normaliser dis is nonnegative and finite at every node, whatever the degree is: the reciprocal square root
  of max deg ε is 0 at ⊤ and a positive real elsewhere, and the other branch of the `where` is 0. A list of row
  numbers read as a column of start indices has the list's entry e in row e. The wrap of negative row numbers
  leaves a nonnegative number alone.
-/
import proofs.«159128_j9998683865331_2_alg».proof.Proof.RefParts
import proofs.«159128_j9998683865331_2_alg».proof.Proof.LibScaleSum
import proofs.«159128_j9998683865331_2_alg».proof.Proof.LibRowGather
import Idealize.ShloMosaic.Lib.Pipeline.Value
import Idealize.ShloMosaic.PureOps.Ideal.Laws

set_option maxRecDepth 16384

noncomputable section

namespace Cert.ReferenceIdeal.Parts

open Cert.ReferenceIdeal Cert.ReferenceIdeal.Gen Idealize.ShloMosaic Idealize.ShloMosaic.ValueIdx

-- the degrees are never opened here: whatever they are, the normaliser is in range
attribute [local irreducible] degree

/-- The float pattern of ε (1e-12 rounded to a float) is a positive real. -/
theorem eps_pos : ∃ r : ℝ, 0 < r ∧ Ideal.ofBits .f32 0x2B8CBCCC#32 = (r : EReal) :=
  ⟨((2 ^ 23 + 834764 : ℕ) : ℝ) * (2 : ℝ) ^ (-63 : ℤ), by positivity,
    by simp [Ideal.ofBits, Ideal.ieee, -EReal.coe_mul]⟩

/-- The host's reciprocal square root of a vector, at an entry. -/
theorem hostRsqrt_apply {s : Shape} (v : FVec Ideal s .f32) (i : s.Idx) : Host.rsqrt v i = Ideal.rsqrt (v i) := rfl

/-- A scalar constant repeated along the nodes, at a node. -/
theorem splat_apply (w : BitVec 32) (i : S100000.Idx) :
    broadcastInDim S100000 ![] bcast_S_S100000 (constant (F := Ideal) S_ .f32 w) i = Ideal.ofBits .f32 w := rfl

/-- The same through the identity conversion the `where` applies to its scalar. -/
theorem splat_id_apply (w : BitVec 32) (i : S100000.Idx) :
    broadcastInDim S100000 ![] bcast_S_S100000 (id (constant (F := Ideal) S_ .f32 w)) i = Ideal.ofBits .f32 w := rfl

/-- THE NORMALISER'S RANGE: nonnegative and finite at every node, whatever the degrees are. -/
theorem normaliser_range (e : IVec S2x1600000 32) (r : Fin 100000) :
    0 ≤ normaliser e (ix1 r) ∧ normaliser e (ix1 r) ≠ ⊤ := by
  obtain ⟨ε, hε, he⟩ := eps_pos
  unfold normaliser
  rw [select_apply, hostRsqrt_apply, maximumf_apply, splat_apply, splat_id_apply, he, Ideal.ofBits_zero_f32]
  unfold Scalar.select
  split
  · exact Ideal.rsqrt_max_pos_range _ hε
  · exact ⟨le_refl _, EReal.zero_ne_top⟩

/-- A list of row numbers as a column, read at its entry `e'`. -/
theorem column_apply (v : IVec S1700000 32) (e' : Fin 1700000) : column v (colEntry e') = v (ix1 e') := by
  unfold column
  exact broadcastInDim_apply _ bcast_S1700000_S1700000x1_0 v (colEntry e') (ix1 e') (fun a => match a with
    | ⟨0, _⟩ => by show e'.val = if (1700000 : Nat) = 1 then 0 else e'.val; rw [if_neg (by decide)])

/-- The wrap leaves a nonnegative row number alone. -/
theorem wrap_of_nonneg (v : IVec S1700000 32) (i : S1700000.Idx) (h : 0 ≤ (v i).toInt) : wrap v i = v i := by
  show Scalar.select (IntOp.cmpi .slt (v i) 0#32) (IntOp.addi (v i) 100000#32) (v i) = v i
  have hc : IntOp.cmpi .slt (v i) 0#32 = 0#1 := by
    unfold IntOp.cmpi
    have : (v i).slt 0#32 = false := by
      rw [BitVec.slt]
      simp only [BitVec.toInt_zero, decide_eq_false_iff_not, not_lt]
      exact h
    rw [this]; rfl
  rw [hc]; rfl

end Cert.ReferenceIdeal.Parts

end
-- ==== Proof.LibScaledScatter.lean ====
/-
  A degree-normalised aggregation can be scaled before and after the sum, or once per edge.

  Rows of an N × C matrix h are gathered along a list of E edges (source row of edge e: the clamped integer
  row(e)) and added up per destination row (edge e lands on row col(e) when that integer is a row number, and is
  dropped otherwise). Let dis be a vector of N factors, each nonnegative and finite. Then, entry by entry,

      ( Σ_{e lands on i}  h(src e, l) · dis(src e) ) · dis(i)
        =  Σ_{e lands on i}  h(src e, l) · ( dis(src e) · dis(dst e) ),

  where dst e is the clamped integer of the destination column after negative numbers have been wrapped: an edge
  that lands on row i has the nonnegative integer i there, which neither the wrap nor the clamp changes, so
  dis(dst e) = dis(i). The factor dis(i) moves inside the sum because it is nonnegative and finite (the one case
  in which multiplication distributes over addition on the extended reals), and the product is associative.
  Nothing is assumed of h: its entries may be infinite.
-/
import proofs.«159128_j9998683865331_2_alg».proof.Proof.LibRowGather
import proofs.«159128_j9998683865331_2_alg».proof.Proof.LibScaleSum

open scoped BigOperators

namespace Idealize.ShloMosaic.ValueIdx

open Idealize.ShloMosaic

/-- THE SCALED AGGREGATION: the scatter-add of updates `h(src e, l) · dis(src e)`, scaled afterwards by `dis(i)`, is
    the scatter-add of updates `h(src e, l) · (dis(src e) · dis(dst e))`, into an operand of zeros. -/
theorem scaled_scatter_rows {N E C : Nat} (hN : 0 < N)
    (ws : ScatterDims.WF ⟨2, ![N, C]⟩ ⟨2, ![E, 1]⟩ ⟨2, ![E, C]⟩ [1] [0] [0] 1)
    (h : (⟨2, ![N, C]⟩ : Shape).Idx → EReal) (dis : (⟨1, ![N]⟩ : Shape).Idx → EReal)
    (hdis : ∀ r : Fin N, 0 ≤ dis (ix1 r) ∧ dis (ix1 r) ≠ ⊤)
    (irow icol icolw : IVec ⟨2, ![E, 1]⟩ 32)
    (hwrap : ∀ e : Fin E, 0 ≤ (icol (colEntry e)).toInt → icolw (colEntry e) = icol (colEntry e))
    (z : (⟨2, ![N, C]⟩ : Shape).Idx → EReal) (hz : ∀ i, z i = 0)
    (updK updR : (⟨2, ![E, C]⟩ : Shape).Idx → EReal)
    (hK : ∀ (e : Fin E) (l : Fin C), updK (ix2 e l) = h (ix2 (clampRow hN irow e) l) * dis (ix1 (clampRow hN irow e)))
    (hR : ∀ (e : Fin E) (l : Fin C), updR (ix2 e l)
      = h (ix2 (clampRow hN irow e) l) * (dis (ix1 (clampRow hN irow e)) * dis (ix1 (clampRow hN icolw e))))
    (i : Fin N) (l : Fin C) :
    Ideal.hostScatterAdd (rowScatterDims N E C ws) z icol updK (ix2 i l) * dis (ix1 i)
      = Ideal.hostScatterAdd (rowScatterDims N E C ws) z icol updR (ix2 i l) := by
  unfold Ideal.hostScatterAdd
  rw [hz, zero_add, zero_add, Ideal.sum_mul_of_nonneg_of_ne_top _ _ (hdis i).1 (hdis i).2]
  refine Finset.sum_congr rfl fun j hj => ?_
  obtain ⟨e, l', rfl⟩ : ∃ (e : Fin E) (l' : Fin C), j = ix2 e l' := ⟨j 0, j 1, eq_ix2 j⟩
  obtain ⟨hint, -⟩ := scatter_rows_lands ws icol e l' (ix2 i l) (Finset.mem_filter.mp hj).2
  have hi : ((ix2 i l : (⟨2, ![N, C]⟩ : Shape).Idx) 0).val = i.val := rfl
  rw [hi] at hint
  have hdst : clampRow hN icolw e = i := by
    refine Fin.ext ?_
    show min (icolw (colEntry e)).toInt.toNat (N - 1) = i.val
    rw [hwrap e (by omega), hint]
    have := i.isLt
    simp only [Int.toNat_natCast]
    omega
  rw [hK, hR, hdst, mul_assoc]

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.AggregateLaw.lean ====
/-
  The kernel's aggregate, scaled by the normaliser, is the reference's aggregate.

  The kernel gathers rows of (x · W)(r, ·) · dis(r) along the source rows, adds them up along the destination rows and
  multiplies row i of the sum by dis(i); the reference multiplies each gathered row of x · W by dis(src) · dis(dst)
  and adds those up. The two agree entry by entry: dis(i) is nonnegative and finite whatever the degree is, so it
  distributes over the sum; and an edge that lands on row i has the nonnegative row number i as its destination,
  which the wrap of negative numbers and the gather's clamp leave alone.
-/
import proofs.«159128_j9998683865331_2_alg».proof.Proof.NormaliserFacts
import proofs.«159128_j9998683865331_2_alg».proof.Proof.LibScaledScatter
import proofs.«159128_j9998683865331_2_alg».proof.Proof.LibBiasRows

set_option maxRecDepth 16384

noncomputable section

namespace Cert.ReferenceIdeal.Parts

open Cert.ReferenceIdeal Cert.ReferenceIdeal.Gen Idealize.ShloMosaic Idealize.ShloMosaic.ValueIdx

-- neither the degrees nor the projected features are opened here
attribute [local irreducible] degree projection normaliser

/-- The aggregate is the scatter-add sum of the messages along the destination rows, into zeros. -/
theorem aggregate_eq (x : FVec Ideal S100000x256 .f32) (w : FVec Ideal S256x128 .f32) (e : IVec S2x1600000 32) :
    aggregate x w e = Ideal.hostScatterAdd (rowScatterDims 100000 1700000 128 scatter_S100000x128_S1700000x1_S1700000x128_1_0_0_1_wf) (broadcastInDim S100000x128 ![] bcast_S_S100000x128 (constant (F := Ideal) S_ .f32 0x00000000#32)) (column (dstRows e)) (messages x w e) := by
  unfold aggregate Host.scatterAdd
  rw [Ideal.hostScatterAdd_def]
  rfl

/-- The operand of zeros, at an entry. -/
theorem zeros_apply (i : S100000x128.Idx) : (broadcastInDim S100000x128 ![] bcast_S_S100000x128 (constant (F := Ideal) S_ .f32 0x00000000#32)) i = 0 :=
  (rfl : (broadcastInDim S100000x128 ![] bcast_S_S100000x128 (constant (F := Ideal) S_ .f32 0x00000000#32)) i = Ideal.ofBits .f32 0x00000000#32).trans Ideal.ofBits_zero_f32

/-- An edge whose destination number is not negative keeps it through the wrap. -/
theorem dst_wrap_keeps (e : IVec S2x1600000 32) (e' : Fin 1700000) (h : 0 ≤ ((column (dstRows e)) (colEntry e')).toInt) :
    (column (wrap (dstRows e))) (colEntry e') = (column (dstRows e)) (colEntry e') := by
  rw [column_apply] at h ⊢
  rw [column_apply]
  exact wrap_of_nonneg _ _ h

/-- A message at `(e', l)`: the projected row of the edge's source at column `l`, times the normalisers of its ends. -/
theorem messages_apply (x : FVec Ideal S100000x256 .f32) (w : FVec Ideal S256x128 .f32) (e : IVec S2x1600000 32)
    (e' : Fin 1700000) (l : Fin 128) :
    messages x w e (ix2 e' l)
      = projection x w (ix2 (clampRow (N := 100000) (by decide) (column (wrap (srcRows e))) e') l)
        * (normaliser e (ix1 (clampRow (N := 100000) (by decide) (column (wrap (srcRows e))) e')) * normaliser e (ix1 (clampRow (N := 100000) (by decide) (column (wrap (dstRows e))) e'))) := by
  have g1 : Host.gather gather_S100000x128_S1700000x1_S1700000x128_1_0_n_n_0_1_1128 (projection x w) (column (wrap (srcRows e))) (ix2 e' l)
      = projection x w (ix2 (clampRow (N := 100000) (by decide) (column (wrap (srcRows e))) e') l) :=
    gather_rows_apply (N := 100000) (E := 1700000) (C := 128) (by decide)
      gather_S100000x128_S1700000x1_S1700000x128_1_0_n_n_0_1_1128_wf (projection x w) (column (wrap (srcRows e))) e' l
  have g2 : Host.gather gather_S100000_S1700000x1_S1700000_n_0_n_n_0_1_1 (normaliser e) (column (wrap (srcRows e))) (ix1 e')
      = normaliser e (ix1 (clampRow (N := 100000) (by decide) (column (wrap (srcRows e))) e')) :=
    gather_vec_apply (N := 100000) (E := 1700000) (by decide) gather_S100000_S1700000x1_S1700000_n_0_n_n_0_1_1_wf (normaliser e) (column (wrap (srcRows e))) e'
  have g3 : Host.gather gather_S100000_S1700000x1_S1700000_n_0_n_n_0_1_1 (normaliser e) (column (wrap (dstRows e))) (ix1 e')
      = normaliser e (ix1 (clampRow (N := 100000) (by decide) (column (wrap (dstRows e))) e')) :=
    gather_vec_apply (N := 100000) (E := 1700000) (by decide) gather_S100000_S1700000x1_S1700000_n_0_n_n_0_1_1_wf (normaliser e) (column (wrap (dstRows e))) e'
  unfold messages
  rw [mulf_apply, row_factors_apply, mulf_apply, g1, g2, g3]

/-- THE SCALED AGGREGATE: for updates `updK` that are the gathered rows of `(x · W)(r, ·) · dis(r)`, the scatter-add
    along the destination rows, times `dis(i)`, is the reference's aggregate at `(i, l)`. -/
theorem aggregate_scaled (x : FVec Ideal S100000x256 .f32) (w : FVec Ideal S256x128 .f32) (e : IVec S2x1600000 32)
    (updK : S1700000x128.Idx → EReal)
    (hK : ∀ (e' : Fin 1700000) (l : Fin 128), updK (ix2 e' l)
      = projection x w (ix2 (clampRow (N := 100000) (by decide) (column (wrap (srcRows e))) e') l) * normaliser e (ix1 (clampRow (N := 100000) (by decide) (column (wrap (srcRows e))) e')))
    (i : Fin 100000) (l : Fin 128) :
    Ideal.hostScatterAdd (rowScatterDims 100000 1700000 128 scatter_S100000x128_S1700000x1_S1700000x128_1_0_0_1_wf) (broadcastInDim S100000x128 ![] bcast_S_S100000x128 (constant (F := Ideal) S_ .f32 0x00000000#32)) (column (dstRows e)) updK (ix2 i l) * normaliser e (ix1 i)
      = aggregate x w e (ix2 i l) := by
  rw [aggregate_eq]
  exact scaled_scatter_rows (N := 100000) (E := 1700000) (C := 128) (by decide)
    scatter_S100000x128_S1700000x1_S1700000x128_1_0_0_1_wf (projection x w) (normaliser e) (normaliser_range e)
    (column (wrap (srcRows e))) (column (dstRows e)) (column (wrap (dstRows e))) (dst_wrap_keeps e) (broadcastInDim S100000x128 ![] bcast_S_S100000x128 (constant (F := Ideal) S_ .f32 0x00000000#32)) zeros_apply updK (messages x w e) hK (messages_apply x w e) i l

end Cert.ReferenceIdeal.Parts

end
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Equivalence.lean ====
/-
  The kernel program's result array is the reference's result.

  Read through its two regions and the host operations around them, the kernel's result is the three dense layers
  of the hidden layer  max (agg'(i, a) · dis(i) + b₀(a)) 0,  where agg' adds up, along the destination rows, the
  gathered rows of (x · W)(r, ·) · dis(r). The reference's hidden layer is  max (agg(i, a) + b₀(a)) 0  with
  agg(i, a) = Σ (x · W)(src, a) · (dis(src) · dis(dst)). By the aggregation law agg'(i, a) · dis(i) = agg(i, a), so
  the hidden layers are one array; the dense layers above it are the same whole-matrix products and the same
  bias rows in both programs, so they agree layer by layer.
-/
import proofs.«159128_j9998683865331_2_alg».proof.Proof.HostStretches
import proofs.«159128_j9998683865331_2_alg».proof.Proof.AggregateLaw
import proofs.«159128_j9998683865331_2_alg».proof.Proof.LibColumnCast
import Idealize.ShloMosaic.Lib.ValueLayout

set_option maxRecDepth 16384

noncomputable section

namespace Cert.Equivalence

open Idealize.ShloMosaic Idealize.ShloMosaic.TcCoe Idealize.ShloMosaic.ValueIdx Idealize.SL.Sem
open Cert.ReferenceIdeal.Parts
open Cert.KernelIdeal.Gen (facts facts₀)
open Cert.ReferenceIdeal.Gen (facts facts₀)

-- the degrees, the normaliser, the messages and the aggregate are used through their lemmas only
attribute [local irreducible] degree normaliser messages aggregate

/-! ## The dense layers: the kernel's whole-array layers are the reference's -/

theorem code_eq (H : FVec Ideal ⟨2, ![100000, 128]⟩ .f32) (w1 : FVec Ideal Cert.ReferenceIdeal.S128x64 .f32) (b1 : FVec Ideal Cert.ReferenceIdeal.S64 .f32) :
    Cert.KernelIdeal.Arrays.code Cert.ReferenceIdeal.Facts₀.dot_S100000x128_S128x64_S100000x64_1_0_0_1_n_n_wf H w1 (shapeCast Cert.KernelIdeal.S1x64 b1 Cert.KernelIdeal.Facts₀.shapeCasts_S64_S1x64) = codeLayer H w1 b1 := by
  funext i
  obtain ⟨r, a, rfl⟩ : ∃ (r : Fin 100000) (a : Fin 64), i = ix2 r a := ⟨i 0, i 1, eq_ix2 i⟩
  show (Host.dotGeneral (F := Ideal) (⟨[1], [0], [0], [1], [], [], Cert.ReferenceIdeal.Facts₀.dot_S100000x128_S128x64_S100000x64_1_0_0_1_n_n_wf⟩ : DotDims ⟨2, ![100000, 128]⟩ ⟨2, ![128, 64]⟩ ⟨2, ![100000, 64]⟩)
        none (φ₁ := .f32) (φ₂ := .f32) H w1 (ix2 r a) : EReal)
      + shapeCast Cert.KernelIdeal.S1x64 b1 Cert.KernelIdeal.Facts₀.shapeCasts_S64_S1x64 (ix2 (0 : Fin 1) a)
    = Host.dotGeneral Cert.ReferenceIdeal.dot_S100000x128_S128x64_S100000x64_1_0_0_1_n_n none H w1 (ix2 r a)
      + broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b1) (ix2 r a)
  rw [bias_rows_apply, shapeCast_a_1a_apply]
  rfl

theorem decoded_eq (Z : FVec Ideal ⟨2, ![100000, 64]⟩ .f32) (w2 : FVec Ideal Cert.ReferenceIdeal.S64x128 .f32) (b2 : FVec Ideal Cert.ReferenceIdeal.S128 .f32) :
    Cert.KernelIdeal.Arrays.decoded Cert.ReferenceIdeal.Facts₀.dot_S100000x64_S64x128_S100000x128_1_0_0_1_n_n_wf Z w2 (shapeCast Cert.KernelIdeal.S1x128 b2 Cert.KernelIdeal.Facts₀.shapeCasts_S128_S1x128) = decodedLayer Z w2 b2 := by
  funext i
  obtain ⟨r, a, rfl⟩ : ∃ (r : Fin 100000) (a : Fin 128), i = ix2 r a := ⟨i 0, i 1, eq_ix2 i⟩
  show max ((Host.dotGeneral (F := Ideal) (⟨[1], [0], [0], [1], [], [], Cert.ReferenceIdeal.Facts₀.dot_S100000x64_S64x128_S100000x128_1_0_0_1_n_n_wf⟩ : DotDims ⟨2, ![100000, 64]⟩ ⟨2, ![64, 128]⟩ ⟨2, ![100000, 128]⟩)
        none (φ₁ := .f32) (φ₂ := .f32) Z w2 (ix2 r a) : EReal)
      + shapeCast Cert.KernelIdeal.S1x128 b2 Cert.KernelIdeal.Facts₀.shapeCasts_S128_S1x128 (ix2 (0 : Fin 1) a)) (Ideal.ofBits .f32 0x00000000#32)
    = max (Host.dotGeneral Cert.ReferenceIdeal.dot_S100000x64_S64x128_S100000x128_1_0_0_1_n_n none Z w2 (ix2 r a)
      + broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 b2) (ix2 r a))
      (Ideal.ofBits .f32 0x00000000#32)
  rw [bias_rows_apply, shapeCast_a_1a_apply]
  rfl

theorem output_eq (G : FVec Ideal ⟨2, ![100000, 128]⟩ .f32) (w3 : FVec Ideal Cert.ReferenceIdeal.S128x256 .f32) (b3 : FVec Ideal Cert.ReferenceIdeal.S256 .f32) :
    Cert.KernelIdeal.Arrays.output Cert.ReferenceIdeal.Facts₀.dot_S100000x128_S128x256_S100000x256_1_0_0_1_n_n_wf G w3 (shapeCast Cert.KernelIdeal.S1x256 b3 Cert.KernelIdeal.Facts₀.shapeCasts_S256_S1x256) = outputLayer G w3 b3 := by
  funext i
  obtain ⟨r, a, rfl⟩ : ∃ (r : Fin 100000) (a : Fin 256), i = ix2 r a := ⟨i 0, i 1, eq_ix2 i⟩
  show (Host.dotGeneral (F := Ideal) (⟨[1], [0], [0], [1], [], [], Cert.ReferenceIdeal.Facts₀.dot_S100000x128_S128x256_S100000x256_1_0_0_1_n_n_wf⟩ : DotDims ⟨2, ![100000, 128]⟩ ⟨2, ![128, 256]⟩ ⟨2, ![100000, 256]⟩)
        none (φ₁ := .f32) (φ₂ := .f32) G w3 (ix2 r a) : EReal)
      + shapeCast Cert.KernelIdeal.S1x256 b3 Cert.KernelIdeal.Facts₀.shapeCasts_S256_S1x256 (ix2 (0 : Fin 1) a)
    = Host.dotGeneral Cert.ReferenceIdeal.dot_S100000x128_S128x256_S100000x256_1_0_0_1_n_n none G w3 (ix2 r a)
      + broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 b3) (ix2 r a)
  rw [bias_rows_apply, shapeCast_a_1a_apply]
  rfl

/-! ## The hidden layer: the aggregation law -/

/-- The kernel program's aggregate is a scatter-add sum of its gathered rows, along the destination rows, into zeros. -/
theorem kernel_aggregate_eq (x : FVec Ideal Cert.ReferenceIdeal.S100000x256 .f32) (w : FVec Ideal Cert.ReferenceIdeal.S256x128 .f32) (e : IVec Cert.ReferenceIdeal.S2x1600000 32) :
    (Host.scatterAdd Cert.KernelIdeal.scatter_S100000x128_S1700000x1_S1700000x128_1_0_0_1 (broadcastInDim Cert.KernelIdeal.S100000x128 ![] Cert.KernelIdeal.Facts₀.bcast_S_S100000x128 (constant (F := Ideal) Cert.KernelIdeal.S_ .f32 0x00000000#32)) (column (dstRows e)) (extf (F := Ideal) .f32 (Host.gather Cert.KernelIdeal.gather_S100000x128_S1700000x1_S1700000x128_1_0_n_n_0_1_1128 (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e)))) Cert.KernelIdeal.Facts₀.bitsLt_bf16_f32))
      = Ideal.hostScatterAdd (rowScatterDims 100000 1700000 128 Cert.ReferenceIdeal.Facts₀.scatter_S100000x128_S1700000x1_S1700000x128_1_0_0_1_wf)
          (broadcastInDim Cert.ReferenceIdeal.S100000x128 ![] Cert.ReferenceIdeal.Facts₀.bcast_S_S100000x128 (constant (F := Ideal) Cert.ReferenceIdeal.S_ .f32 0x00000000#32))
          (column (dstRows e)) (extf (F := Ideal) .f32 (Host.gather Cert.KernelIdeal.gather_S100000x128_S1700000x1_S1700000x128_1_0_n_n_0_1_1128 (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e)))) Cert.KernelIdeal.Facts₀.bitsLt_bf16_f32) := by
  unfold Host.scatterAdd
  rw [Ideal.hostScatterAdd_def]
  rfl

/-- A gathered row of the projection region's output: the projected row of the edge's source, times its normaliser. -/
theorem kernel_update_apply (x : FVec Ideal Cert.ReferenceIdeal.S100000x256 .f32) (w : FVec Ideal Cert.ReferenceIdeal.S256x128 .f32) (e : IVec Cert.ReferenceIdeal.S2x1600000 32)
    (e' : Fin 1700000) (l : Fin 128) :
    (extf (F := Ideal) .f32 (Host.gather Cert.KernelIdeal.gather_S100000x128_S1700000x1_S1700000x128_1_0_n_n_0_1_1128 (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e)))) Cert.KernelIdeal.Facts₀.bitsLt_bf16_f32) (ix2 e' l)
      = projection x w (ix2 (clampRow (N := 100000) (by decide) (column (wrap (srcRows e))) e') l)
        * normaliser e (ix1 (clampRow (N := 100000) (by decide) (column (wrap (srcRows e))) e')) := by
  have g : Host.gather Cert.KernelIdeal.gather_S100000x128_S1700000x1_S1700000x128_1_0_n_n_0_1_1128 (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e))) (ix2 e' l)
      = (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (ix2 (clampRow (N := 100000) (by decide) (column (wrap (srcRows e))) e') l) :=
    gather_rows_apply (N := 100000) (E := 1700000) (C := 128) (by decide)
      Cert.KernelIdeal.Facts₀.gather_S100000x128_S1700000x1_S1700000x128_1_0_n_n_0_1_1128_wf (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e))) e' l
  rw [extf_apply, g]
  show (Host.dotGeneral (F := Ideal) (⟨[1], [0], [0], [1], [], [], Cert.ReferenceIdeal.Facts₀.dot_S100000x256_S256x128_S100000x128_1_0_0_1_n_n_wf⟩ : DotDims ⟨2, ![100000, 256]⟩ ⟨2, ![256, 128]⟩ ⟨2, ![100000, 128]⟩)
        none (φ₁ := .f32) (φ₂ := .f32) x w (ix2 (clampRow (N := 100000) (by decide) (column (wrap (srcRows e))) e') l) : EReal)
      * (shapeCast Cert.KernelIdeal.S100000x1 (normaliser e) Cert.KernelIdeal.Facts₀.shapeCasts_S100000_S100000x1) (ix2 (clampRow (N := 100000) (by decide) (column (wrap (srcRows e))) e') (0 : Fin 1)) = _
  rw [shapeCast_a_a1_apply]
  rfl

/-- The kernel program's hidden layer, over any arrays, at an entry. -/
theorem hidden_apply (A : Cert.KernelIdeal.S100000x128.Idx → Elt Ideal .f32) (d : Cert.KernelIdeal.S100000x1.Idx → Elt Ideal .f32)
    (b : Cert.KernelIdeal.S1x128.Idx → Elt Ideal .f32) (r : Fin 100000) (a : Fin 128) :
    Cert.KernelIdeal.Arrays.hidden A d b (ix2 r a)
      = max ((A (ix2 r a) : EReal) * d (ix2 r (0 : Fin 1)) + b (ix2 (0 : Fin 1) a)) (Ideal.ofBits .f32 0x00000000#32) := rfl

/-- The reference's hidden layer, over any aggregate, at an entry. -/
theorem hiddenLayer_apply (A : FVec Ideal Cert.ReferenceIdeal.S100000x128 .f32) (b0 : FVec Ideal Cert.ReferenceIdeal.S128 .f32) (r : Fin 100000) (a : Fin 128) :
    hiddenLayer A b0 (ix2 r a) = max (A (ix2 r a) + b0 (ix1 a)) (Ideal.ofBits .f32 0x00000000#32) := by
  unfold hiddenLayer
  rw [maximumf_apply, addf_apply, bias_rows_apply]
  rfl

theorem hidden_eq (x : FVec Ideal Cert.ReferenceIdeal.S100000x256 .f32) (w : FVec Ideal Cert.ReferenceIdeal.S256x128 .f32) (e : IVec Cert.ReferenceIdeal.S2x1600000 32)
    (b0 : FVec Ideal Cert.ReferenceIdeal.S128 .f32) :
    Cert.KernelIdeal.Arrays.hidden (Host.scatterAdd Cert.KernelIdeal.scatter_S100000x128_S1700000x1_S1700000x128_1_0_0_1 (broadcastInDim Cert.KernelIdeal.S100000x128 ![] Cert.KernelIdeal.Facts₀.bcast_S_S100000x128 (constant (F := Ideal) Cert.KernelIdeal.S_ .f32 0x00000000#32)) (column (dstRows e)) (extf (F := Ideal) .f32 (Host.gather Cert.KernelIdeal.gather_S100000x128_S1700000x1_S1700000x128_1_0_n_n_0_1_1128 (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e)))) Cert.KernelIdeal.Facts₀.bitsLt_bf16_f32)) (shapeCast Cert.KernelIdeal.S100000x1 (normaliser e) Cert.KernelIdeal.Facts₀.shapeCasts_S100000_S100000x1) (shapeCast Cert.KernelIdeal.S1x128 b0 Cert.KernelIdeal.Facts₀.shapeCasts_S128_S1x128)
      = hiddenLayer (aggregate x w e) b0 := by
  funext i
  obtain ⟨r, a, rfl⟩ : ∃ (r : Fin 100000) (a : Fin 128), i = ix2 r a := ⟨i 0, i 1, eq_ix2 i⟩
  rw [hidden_apply, hiddenLayer_apply, shapeCast_a_1a_apply, shapeCast_a_a1_apply, kernel_aggregate_eq,
    aggregate_scaled x w e (extf (F := Ideal) .f32 (Host.gather Cert.KernelIdeal.gather_S100000x128_S1700000x1_S1700000x128_1_0_n_n_0_1_1128 (Cert.KernelIdeal.Arrays.projected Cert.ReferenceIdeal.Facts₀.dot_S100000x256_S256x128_S100000x128_1_0_0_1_n_n_wf x w (shapeCast Cert.KernelIdeal.S100000x1 (normaliser e) Cert.KernelIdeal.Facts₀.shapeCasts_S100000_S100000x1)) (column (wrap (srcRows e)))) Cert.KernelIdeal.Facts₀.bitsLt_bf16_f32) (kernel_update_apply x w e) r a]

/-! ## The kernel program's result array -/

/-- THE KERNEL PROGRAM'S RESULT: read through the decoder region, the host operations before it and the projection
    region, it is the reference's composition of pieces, at the kernel program's own arguments. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.V6 m ρ c Cert.KernelIdeal.main_v34 = (outputLayer (decodedLayer (codeLayer (hiddenLayer (aggregate (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg1))) (m ((c : Thread Cert.KernelIdeal.nD Cert.KernelIdeal.τ).loc Cert.KernelIdeal.main_arg3))) (m ((c : Thread Cert.KernelIdeal.nD Cert.KernelIdeal.τ).loc Cert.KernelIdeal.main_arg4)) (m ((c : Thread Cert.KernelIdeal.nD Cert.KernelIdeal.τ).loc Cert.KernelIdeal.main_arg5))) (m ((c : Thread Cert.KernelIdeal.nD Cert.KernelIdeal.τ).loc Cert.KernelIdeal.main_arg6)) (m ((c : Thread Cert.KernelIdeal.nD Cert.KernelIdeal.τ).loc Cert.KernelIdeal.main_arg7))) (m ((c : Thread Cert.KernelIdeal.nD Cert.KernelIdeal.τ).loc Cert.KernelIdeal.main_arg8)) (m ((c : Thread Cert.KernelIdeal.nD Cert.KernelIdeal.τ).loc Cert.KernelIdeal.main_arg9))) := by
  refine (Cert.KernelIdeal.Gen.W6_arr m ρ c 9).trans ((Cert.KernelIdeal.Arrays.final1 (Cert.KernelIdeal.Gen.V5 m ρ) Cert.ReferenceIdeal.Facts₀.dot_S100000x128_S128x64_S100000x64_1_0_0_1_n_n_wf Cert.ReferenceIdeal.Facts₀.dot_S100000x64_S64x128_S100000x128_1_0_0_1_n_n_wf Cert.ReferenceIdeal.Facts₀.dot_S100000x128_S128x256_S100000x256_1_0_0_1_n_n_wf c).trans ?_)
  rw [Cert.KernelIdeal.Host.entry1_a m ρ Cert.ReferenceIdeal.Facts₀.dot_S100000x256_S256x128_S100000x128_1_0_0_1_n_n_wf c, Cert.KernelIdeal.Host.entry1_d, Cert.KernelIdeal.Host.entry1_b0, Cert.KernelIdeal.Host.entry1_w1, Cert.KernelIdeal.Host.entry1_b1,
    Cert.KernelIdeal.Host.entry1_w2, Cert.KernelIdeal.Host.entry1_b2, Cert.KernelIdeal.Host.entry1_w3, Cert.KernelIdeal.Host.entry1_b3]
  rw [hidden_eq, code_eq, decoded_eq, output_eq]

end Cert.Equivalence

end
-- ==== Proof.lean ====
/-
  The certificate of a graph-convolution imputer: a kernel program in two kernel regions against its plain reference,
  equal at the exact extended reals.

  Both programs form, from the edge list, the source and destination rows (self loops appended), the in-degrees and
  the normaliser dis = 1/√(max deg ε) (0 where the degree is 0). The reference aggregates
      agg(i, l) = Σ_{edges landing on i} (x · W)(src, l) · (dis(src) · dis(dst))
  and applies three dense layers, clipping at zero after the first two. The kernel program scales the rows of x · W
  by dis before the edges are gathered (its first region, a row-blocked matrix product), adds the gathered rows up
  on the host, and scales row i of the sum by dis(i) again inside its second region, which also runs the three
  dense layers on blocks of 4000 rows. The two agree because dis(i) — nonnegative and finite whatever the degree
  is — distributes over the sum, because an edge landing on row i has i as its destination (so dis(dst) = dis(i)),
  and because a block of rows of a matrix product is the product of that block of rows; changes of float format
  are the identity on the extended reals. No input needs to be finite for this.

  The frames of the two kernel programs are the generated ones; the reference's frame is its run with the result
  dropped; the idealization rewrote nothing, so `preserves` has nothing to state.
-/
import proofs.«159128_j9998683865331_2_alg».proof.Defs
import proofs.«159128_j9998683865331_2_alg».proof.Proof.Gen.Kernel
import proofs.«159128_j9998683865331_2_alg».proof.Proof.Gen.Kernel.Skeleton
import proofs.«159128_j9998683865331_2_alg».proof.Proof.Gen.Kernel.Launch
import proofs.«159128_j9998683865331_2_alg».proof.Proof.Gen.Kernel.Points
import proofs.«159128_j9998683865331_2_alg».proof.Proof.Gen.Kernel.Frame
import proofs.«159128_j9998683865331_2_alg».proof.Proof.Gen.KernelIdeal
import proofs.«159128_j9998683865331_2_alg».proof.Proof.Gen.KernelIdeal.Skeleton
import proofs.«159128_j9998683865331_2_alg».proof.Proof.Gen.KernelIdeal.Launch
import proofs.«159128_j9998683865331_2_alg».proof.Proof.Gen.KernelIdeal.Points
import proofs.«159128_j9998683865331_2_alg».proof.Proof.Gen.KernelIdeal.Frame
import proofs.«159128_j9998683865331_2_alg».proof.Proof.Gen.ReferenceIdeal
import proofs.«159128_j9998683865331_2_alg».proof.Proof.Gen.Pre_finite_inputs
import proofs.«159128_j9998683865331_2_alg».proof.Proof.KernelRun
import proofs.«159128_j9998683865331_2_alg».proof.Proof.RefRun
import proofs.«159128_j9998683865331_2_alg».proof.Proof.Equivalence
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments both programs end with one result array: the kernel program's, read
    through its regions, is the reference's composition of pieces at the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
    (fun r h c => ⟨(h c).1.trans (Cert.Equivalence.kernel_result m ρ c), (h c).2⟩) (Cert.KernelIdeal.Run.run_named m ρ), ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.Parts.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
